-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x768 : Shape := ⟨3, ![16, 1024, 768]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S16x1024x768 : S_.BroadcastsInDim S16x1024x768 (![] : Fin 0 → Fin S16x1024x768.rank)
  reducesTo_S16x1024x768_S_d0_1_2 : S16x1024x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S16x1024x768 .f32) (main_arg1 : FVec F S2304x768 .f32) (main_arg2 : FVec F S768x768 .f32) (main_arg3 : FVec F S768 .f32) : IVec S_ 1 :=
  let main_v0 : FVec F S16x1024x768 .f32 := Host.absf main_arg0
  let main_cst : FVec F S_ .f32 := constant S_ .f32 0x7F800000#32
  let main_v1 : FVec F S16x1024x768 .f32 := broadcastInDim S16x1024x768 ![] bcast_S_S16x1024x768 main_cst
  let main_v2 : IVec S16x1024x768 1 := cmpf .olt main_v0 main_v1
  let main_c : IVec S_ 1 := constantI S_ 1 1#1
  let main_v3 : IVec S_ 1 := (fun x v => Host.reduce IntOp.andi x v reducesTo_S16x1024x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S16x1024x768 : Shape := ⟨3, ![16, 1024, 768]⟩
abbrev S2304x768 : Shape := ⟨2, ![2304, 768]⟩
abbrev S768x768 : Shape := ⟨2, ![768, 768]⟩
abbrev S768 : Shape := ⟨1, ![768]⟩
abbrev S_ : Shape := ⟨0, ![]⟩
abbrev S16384x768 : Shape := ⟨2, ![16384, 768]⟩
abbrev S16384x2304 : Shape := ⟨2, ![16384, 2304]⟩
abbrev S512x768 : Shape := ⟨2, ![512, 768]⟩
abbrev S512x2304 : Shape := ⟨2, ![512, 2304]⟩
abbrev S16x1024x3x12x64 : Shape := ⟨5, ![16, 1024, 3, 12, 64]⟩
abbrev S3x16x12x1024x64 : Shape := ⟨5, ![3, 16, 12, 1024, 64]⟩
abbrev S1x16x12x1024x64 : Shape := ⟨5, ![1, 16, 12, 1024, 64]⟩
abbrev S16x12x1024x64 : Shape := ⟨4, ![16, 12, 1024, 64]⟩
abbrev S192x1024x64 : Shape := ⟨3, ![192, 1024, 64]⟩
abbrev S1x1024x64 : Shape := ⟨3, ![1, 1024, 64]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S16x1024x12x64 : Shape := ⟨4, ![16, 1024, 12, 64]⟩
abbrev S1x768 : Shape := ⟨2, ![1, 768]⟩

abbrev nBuf : Space → Nat
  | .hbm => 74
  | .vmem => 19
  | .smem => 0
  | _ => 0

abbrev bufTy : (tb : Table) → Fin (tcTables nBuf tb) → BufTy
  | .hbm, ⟨0, _⟩ => ⟨S16x1024x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S2304x768, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2304x768, .f32⟩
  | .hbm, ⟨12, _⟩ => ⟨S2304x768, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2304x768, .f32⟩
  | .hbm, ⟨17, _⟩ => ⟨S2304x768, .f32⟩
  | .hbm, ⟨18, _⟩ => ⟨S_, .f32⟩
  | .hbm, ⟨19, _⟩ => ⟨S2304x768, .f32⟩
  | .hbm, ⟨20, _⟩ => ⟨S2304x768, .f32⟩
  | .hbm, ⟨21, _⟩ => ⟨S2304x768, .f32⟩
  | .hbm, ⟨22, _⟩ => ⟨S2304x768, .f32⟩
  | .hbm, ⟨23, _⟩ => ⟨S2304x768, .f32⟩
  | .hbm, ⟨24, _⟩ => ⟨S2304x768, .f32⟩
  | .hbm, ⟨25, _⟩ => ⟨S2304x768, .f32⟩
  | .hbm, ⟨26, _⟩ => ⟨S2304x768, .bf16⟩
  | .hbm, ⟨27, _⟩ => ⟨S768x768, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S768x768, .f32⟩
  | .hbm, ⟨35, _⟩ => ⟨S768x768, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S768x768, .f32⟩
  | .hbm, ⟨40, _⟩ => ⟨S768x768, .f32⟩
  | .hbm, ⟨41, _⟩ => ⟨S_, .f32⟩
  | .hbm, ⟨42, _⟩ => ⟨S768x768, .f32⟩
  | .hbm, ⟨43, _⟩ => ⟨S768x768, .f32⟩
  | .hbm, ⟨44, _⟩ => ⟨S768x768, .f32⟩
  | .hbm, ⟨45, _⟩ => ⟨S768x768, .f32⟩
  | .hbm, ⟨46, _⟩ => ⟨S768x768, .f32⟩
  | .hbm, ⟨47, _⟩ => ⟨S768x768, .f32⟩
  | .hbm, ⟨48, _⟩ => ⟨S768x768, .f32⟩
  | .hbm, ⟨49, _⟩ => ⟨S768x768, .bf16⟩
  | .hbm, ⟨50, _⟩ => ⟨S16384x768, .f32⟩
  | .hbm, ⟨51, _⟩ => ⟨S16384x768, .bf16⟩
  | .hbm, ⟨52, _⟩ => ⟨S16384x2304, .f32⟩
  | .hbm, ⟨53, _⟩ => ⟨S16x1024x3x12x64, .f32⟩
  | .hbm, ⟨54, _⟩ => ⟨S3x16x12x1024x64, .f32⟩
  | .hbm, ⟨55, _⟩ => ⟨S1x16x12x1024x64, .f32⟩
  | .hbm, ⟨56, _⟩ => ⟨S16x12x1024x64, .f32⟩
  | .hbm, ⟨57, _⟩ => ⟨S1x16x12x1024x64, .f32⟩
  | .hbm, ⟨58, _⟩ => ⟨S16x12x1024x64, .f32⟩
  | .hbm, ⟨59, _⟩ => ⟨S1x16x12x1024x64, .f32⟩
  | .hbm, ⟨60, _⟩ => ⟨S16x12x1024x64, .f32⟩
  | .hbm, ⟨61, _⟩ => ⟨S192x1024x64, .f32⟩
  | .hbm, ⟨62, _⟩ => ⟨S192x1024x64, .bf16⟩
  | .hbm, ⟨63, _⟩ => ⟨S192x1024x64, .f32⟩
  | .hbm, ⟨64, _⟩ => ⟨S192x1024x64, .bf16⟩
  | .hbm, ⟨65, _⟩ => ⟨S192x1024x64, .f32⟩
  | .hbm, ⟨66, _⟩ => ⟨S192x1024x64, .bf16⟩
  | .hbm, ⟨67, _⟩ => ⟨S192x1024x64, .f32⟩
  | .hbm, ⟨68, _⟩ => ⟨S16x12x1024x64, .f32⟩
  | .hbm, ⟨69, _⟩ => ⟨S16x1024x12x64, .f32⟩
  | .hbm, ⟨70, _⟩ => ⟨S16384x768, .f32⟩
  | .hbm, ⟨71, _⟩ => ⟨S16384x768, .bf16⟩
  | .hbm, ⟨72, _⟩ => ⟨S16384x768, .f32⟩
  | .hbm, ⟨73, _⟩ => ⟨S16x1024x768, .f32⟩
  | .local _ .vmem, ⟨0, _⟩ => ⟨S512x768, .bf16⟩
  | .local _ .vmem, ⟨1, _⟩ => ⟨S512x768, .bf16⟩
  | .local _ .vmem, ⟨2, _⟩ => ⟨S2304x768, .bf16⟩
  | .local _ .vmem, ⟨3, _⟩ => ⟨S512x2304, .f32⟩
  | .local _ .vmem, ⟨4, _⟩ => ⟨S512x2304, .f32⟩
  | .local _ .vmem, ⟨5, _⟩ => ⟨S1x1024x64, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x1024x64, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x1024x64, .f32⟩
  | .local _ .vmem, ⟨12, _⟩ => ⟨S1x1024x64, .f32⟩
  | .local _ .vmem, ⟨13, _⟩ => ⟨S512x768, .bf16⟩
  | .local _ .vmem, ⟨14, _⟩ => ⟨S512x768, .bf16⟩
  | .local _ .vmem, ⟨15, _⟩ => ⟨S768x768, .bf16⟩
  | .local _ .vmem, ⟨16, _⟩ => ⟨S768, .f32⟩
  | .local _ .vmem, ⟨17, _⟩ => ⟨S512x768, .f32⟩
  | .local _ .vmem, ⟨18, _⟩ => ⟨S512x768, .f32⟩
  | _, _ => ⟨S16x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_cst_3 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_cst_6 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_7 : Ref sig .tc := ⟨.hbm, 36, rfl⟩
abbrev main_cst_8 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![192], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  reducesTo_S2304x768_S_d0_1 : S2304x768.ReducesTo [0, 1] S_
  h_S_ : 0 < S_.numel
  bcast_S_S2304x768 : S_.BroadcastsInDim S2304x768 (![] : Fin 0 → Fin S2304x768.rank)
  bitsLt_bf16_f32 : FTy.bits .bf16 < FTy.bits .f32
  reducesTo_S768x768_S_d0_1 : S768x768.ReducesTo [0, 1] S_
  bcast_S_S768x768 : S_.BroadcastsInDim S768x768 (![] : Fin 0 → Fin S768x768.rank)
  shapeCasts_S16x1024x768_S16384x768 : S16x1024x768.ShapeCasts S16384x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S2304x768_S2304x768_0_0 : ∀ a, (![0, 0] : Fin 2 → Nat) a + S2304x768.size a ≤ S2304x768.size a
  h_S2304x768 : 0 < S2304x768.numel
  shapeCasts_S2304x768_S2304x768 : S2304x768.ShapeCasts S2304x768
  inb_S512x2304_S512x2304_0_0 : ∀ a, (![0, 0] : Fin 2 → Nat) a + S512x2304.size a ≤ S512x2304.size a
  h_S512x2304 : 0 < S512x2304.numel
  shapeCasts_S16384x2304_S16x1024x3x12x64 : S16384x2304.ShapeCasts S16x1024x3x12x64
  transposes_S16x1024x3x12x64_S3x16x12x1024x64_2_0_3_1_4 : S16x1024x3x12x64.Transposes [2, 0, 3, 1, 4] S3x16x12x1024x64
  slices_S3x16x12x1024x64_S1x16x12x1024x64_0_0_0_0_0 : S3x16x12x1024x64.Slices ![0, 0, 0, 0, 0] S1x16x12x1024x64
  shapeCasts_S1x16x12x1024x64_S16x12x1024x64 : S1x16x12x1024x64.ShapeCasts S16x12x1024x64
  slices_S3x16x12x1024x64_S1x16x12x1024x64_1_0_0_0_0 : S3x16x12x1024x64.Slices ![1, 0, 0, 0, 0] S1x16x12x1024x64
  slices_S3x16x12x1024x64_S1x16x12x1024x64_2_0_0_0_0 : S3x16x12x1024x64.Slices ![2, 0, 0, 0, 0] S1x16x12x1024x64
  shapeCasts_S16x12x1024x64_S192x1024x64 : S16x12x1024x64.ShapeCasts S192x1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S1024x1024_S1024 : S1024x1024.Reduces [1] S1024
  shapeCasts_S1024_S1024x1 : S1024.ShapeCasts S1024x1
  broadcasts_S1024x1_S1024x1024 : S1024x1.Broadcasts S1024x1024
  shapeCasts_S1024x64_S1x1024x64 : S1024x64.ShapeCasts S1x1024x64
  shapeCasts_S192x1024x64_S16x12x1024x64 : S192x1024x64.ShapeCasts S16x12x1024x64
  transposes_S16x12x1024x64_S16x1024x12x64_0_2_1_3 : S16x12x1024x64.Transposes [0, 2, 1, 3] S16x1024x12x64
  shapeCasts_S16x1024x12x64_S16384x768 : S16x1024x12x64.ShapeCasts S16384x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  shapeCasts_S768_S1x768 : S768.ShapeCasts S1x768
  broadcasts_S1x768_S512x768 : S1x768.Broadcasts S512x768
  shapeCasts_S16384x768_S16x1024x768 : S16384x768.ShapeCasts S16x1024x768
  dot_S512x768_S2304x768_S512x2304_1_1_0_0_n_n_wf : DotDims.WF S512x768 S2304x768 S512x2304 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S512x768_S768x768_S512x768_1_1_0_0_n_n_wf : DotDims.WF S512x768 S768x768 S512x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S16384x768.size a
  hwx0_0 : ∀ i : grid0.Coords, EltTy.bits .bf16 = 32 ∨ (Rect.block (s := S16384x768) S512x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x768.size a ≤ S2304x768.size a
  hwx0_1 : ∀ i : grid0.Coords, EltTy.bits .bf16 = 32 ∨ (Rect.block (s := S2304x768) S2304x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2304.size a ≤ S16384x2304.size a
  hwx0_2 : ∀ i : grid0.Coords, EltTy.bits .f32 = 32 ∨ (Rect.block (s := S16384x2304) S512x2304.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S192x1024x64.size a
  hwx1_0 : ∀ i : grid1.Coords, EltTy.bits .bf16 = 32 ∨ (Rect.block (s := S192x1024x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S192x1024x64.size a
  hwx1_1 : ∀ i : grid1.Coords, EltTy.bits .bf16 = 32 ∨ (Rect.block (s := S192x1024x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S192x1024x64.size a
  hwx1_2 : ∀ i : grid1.Coords, EltTy.bits .bf16 = 32 ∨ (Rect.block (s := S192x1024x64) S1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S192x1024x64.size a
  hwx1_3 : ∀ i : grid1.Coords, EltTy.bits .f32 = 32 ∨ (Rect.block (s := S192x1024x64) S1x1024x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x768.size a ≤ S16384x768.size a
  hwx2_0 : ∀ i : grid2.Coords, EltTy.bits .bf16 = 32 ∨ (Rect.block (s := S16384x768) S512x768.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .bf16 = 32 ∨ (Rect.block (s := S768x768) S768x768.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S768.size a ≤ S768.size a
  hwx2_2 : ∀ i : grid2.Coords, EltTy.bits .f32 = 32 ∨ (Rect.block (s := S768) S768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x768.size a ≤ S16384x768.size a
  hwx2_3 : ∀ i : grid2.Coords, EltTy.bits .f32 = 32 ∨ (Rect.block (s := S16384x768) S512x768.size (cc2_transform_3 i) (hinb2_3 i)).WholeWords (EltTy.packing .f32)

variable [Facts₀]

def dot_S512x768_S2304x768_S512x2304_1_1_0_0_n_n : DotDims S512x768 S2304x768 S512x2304 where
  lhsContracting := [1]
  rhsContracting := [1]
  lhsNonContracting := [0]
  rhsNonContracting := [0]
  lhsBatch := []
  rhsBatch := []
  wf := dot_S512x768_S2304x768_S512x2304_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S512x768_S768x768_S512x768_1_1_0_0_n_n : DotDims S512x768 S768x768 S512x768 where
  lhsContracting := [1]
  rhsContracting := [1]
  lhsNonContracting := [0]
  rhsNonContracting := [0]
  lhsBatch := []
  rhsBatch := []
  wf := dot_S512x768_S768x768_S512x768_1_1_0_0_n_n_wf

abbrev win0_0 : Pipeline.Window sig grid0 :=
  Pipeline.Window.ofSpec (Memref.whole main_v27) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2304x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S512x2304.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S512x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S512x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S16x1024x768 : Shape := ⟨3, ![16, 1024, 768]⟩
abbrev S2304x768 : Shape := ⟨2, ![2304, 768]⟩
abbrev S768x768 : Shape := ⟨2, ![768, 768]⟩
abbrev S768 : Shape := ⟨1, ![768]⟩
abbrev S_ : Shape := ⟨0, ![]⟩
abbrev S16x1024x2304 : Shape := ⟨3, ![16, 1024, 2304]⟩
abbrev S16x1024x3x12x64 : Shape := ⟨5, ![16, 1024, 3, 12, 64]⟩
abbrev S3x16x12x1024x64 : Shape := ⟨5, ![3, 16, 12, 1024, 64]⟩
abbrev S1x16x12x1024x64 : Shape := ⟨5, ![1, 16, 12, 1024, 64]⟩
abbrev S16x12x1024x64 : Shape := ⟨4, ![16, 12, 1024, 64]⟩
abbrev S16x12x1024x1024 : Shape := ⟨4, ![16, 12, 1024, 1024]⟩
abbrev S16x12x1024 : Shape := ⟨3, ![16, 12, 1024]⟩
abbrev S16x12x1024x1 : Shape := ⟨4, ![16, 12, 1024, 1]⟩
abbrev S16x1024x12x64 : Shape := ⟨4, ![16, 1024, 12, 64]⟩
abbrev S1x1x768 : Shape := ⟨3, ![1, 1, 768]⟩

abbrev nBuf : Space → Nat
  | .hbm => 82
  | .vmem => 0
  | .smem => 0
  | _ => 0

abbrev bufTy : (tb : Table) → Fin (tcTables nBuf tb) → BufTy
  | .hbm, ⟨0, _⟩ => ⟨S16x1024x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S2304x768, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2304x768, .f32⟩
  | .hbm, ⟨12, _⟩ => ⟨S2304x768, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2304x768, .f32⟩
  | .hbm, ⟨17, _⟩ => ⟨S2304x768, .f32⟩
  | .hbm, ⟨18, _⟩ => ⟨S_, .f32⟩
  | .hbm, ⟨19, _⟩ => ⟨S2304x768, .f32⟩
  | .hbm, ⟨20, _⟩ => ⟨S2304x768, .f32⟩
  | .hbm, ⟨21, _⟩ => ⟨S2304x768, .f32⟩
  | .hbm, ⟨22, _⟩ => ⟨S2304x768, .f32⟩
  | .hbm, ⟨23, _⟩ => ⟨S2304x768, .f32⟩
  | .hbm, ⟨24, _⟩ => ⟨S2304x768, .f32⟩
  | .hbm, ⟨25, _⟩ => ⟨S2304x768, .f32⟩
  | .hbm, ⟨26, _⟩ => ⟨S16x1024x2304, .f32⟩
  | .hbm, ⟨27, _⟩ => ⟨S16x1024x3x12x64, .f32⟩
  | .hbm, ⟨28, _⟩ => ⟨S3x16x12x1024x64, .f32⟩
  | .hbm, ⟨29, _⟩ => ⟨S1x16x12x1024x64, .f32⟩
  | .hbm, ⟨30, _⟩ => ⟨S16x12x1024x64, .f32⟩
  | .hbm, ⟨31, _⟩ => ⟨S1x16x12x1024x64, .f32⟩
  | .hbm, ⟨32, _⟩ => ⟨S16x12x1024x64, .f32⟩
  | .hbm, ⟨33, _⟩ => ⟨S1x16x12x1024x64, .f32⟩
  | .hbm, ⟨34, _⟩ => ⟨S16x12x1024x64, .f32⟩
  | .hbm, ⟨35, _⟩ => ⟨S16x12x1024x1024, .f32⟩
  | .hbm, ⟨36, _⟩ => ⟨S_, .f32⟩
  | .hbm, ⟨37, _⟩ => ⟨S16x12x1024x1024, .f32⟩
  | .hbm, ⟨38, _⟩ => ⟨S16x12x1024x1024, .f32⟩
  | .hbm, ⟨39, _⟩ => ⟨S_, .f32⟩
  | .hbm, ⟨40, _⟩ => ⟨S16x12x1024, .f32⟩
  | .hbm, ⟨41, _⟩ => ⟨S_, .f32⟩
  | .hbm, ⟨42, _⟩ => ⟨S16x12x1024, .f32⟩
  | .hbm, ⟨43, _⟩ => ⟨S16x12x1024, .f32⟩
  | .hbm, ⟨44, _⟩ => ⟨S16x12x1024x1, .f32⟩
  | .hbm, ⟨45, _⟩ => ⟨S16x12x1024x1024, .f32⟩
  | .hbm, ⟨46, _⟩ => ⟨S16x12x1024x1024, .f32⟩
  | .hbm, ⟨47, _⟩ => ⟨S16x12x1024x1024, .f32⟩
  | .hbm, ⟨48, _⟩ => ⟨S_, .f32⟩
  | .hbm, ⟨49, _⟩ => ⟨S16x12x1024, .f32⟩
  | .hbm, ⟨50, _⟩ => ⟨S16x12x1024x1, .f32⟩
  | .hbm, ⟨51, _⟩ => ⟨S16x12x1024x1024, .f32⟩
  | .hbm, ⟨52, _⟩ => ⟨S16x12x1024x1024, .f32⟩
  | .hbm, ⟨53, _⟩ => ⟨S16x12x1024x64, .f32⟩
  | .hbm, ⟨54, _⟩ => ⟨S16x1024x12x64, .f32⟩
  | .hbm, ⟨55, _⟩ => ⟨S16x1024x768, .f32⟩
  | .hbm, ⟨56, _⟩ => ⟨S768x768, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S768x768, .f32⟩
  | .hbm, ⟨64, _⟩ => ⟨S768x768, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S768x768, .f32⟩
  | .hbm, ⟨69, _⟩ => ⟨S768x768, .f32⟩
  | .hbm, ⟨70, _⟩ => ⟨S_, .f32⟩
  | .hbm, ⟨71, _⟩ => ⟨S768x768, .f32⟩
  | .hbm, ⟨72, _⟩ => ⟨S768x768, .f32⟩
  | .hbm, ⟨73, _⟩ => ⟨S768x768, .f32⟩
  | .hbm, ⟨74, _⟩ => ⟨S768x768, .f32⟩
  | .hbm, ⟨75, _⟩ => ⟨S768x768, .f32⟩
  | .hbm, ⟨76, _⟩ => ⟨S768x768, .f32⟩
  | .hbm, ⟨77, _⟩ => ⟨S768x768, .f32⟩
  | .hbm, ⟨78, _⟩ => ⟨S16x1024x768, .f32⟩
  | .hbm, ⟨79, _⟩ => ⟨S1x1x768, .f32⟩
  | .hbm, ⟨80, _⟩ => ⟨S16x1024x768, .f32⟩
  | .hbm, ⟨81, _⟩ => ⟨S16x1024x768, .f32⟩
  | _, _ => ⟨S16x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_cst_3 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_11 : Ref sig .tc := ⟨.hbm, 65, rfl⟩
abbrev main_cst_12 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩

abbrev nD : Nat := 1
abbrev τ : Topo := Topo.v7x

variable {F : FTy → Type} [FloatOps F]

class Facts₀ : Prop where
  reducesTo_S2304x768_S_d0_1 : S2304x768.ReducesTo [0, 1] S_
  h_S_ : 0 < S_.numel
  bcast_S_S2304x768 : S_.BroadcastsInDim S2304x768 (![] : Fin 0 → Fin S2304x768.rank)
  shapeCasts_S16x1024x2304_S16x1024x3x12x64 : S16x1024x2304.ShapeCasts S16x1024x3x12x64
  transposes_S16x1024x3x12x64_S3x16x12x1024x64_2_0_3_1_4 : S16x1024x3x12x64.Transposes [2, 0, 3, 1, 4] S3x16x12x1024x64
  slices_S3x16x12x1024x64_S1x16x12x1024x64_0_0_0_0_0 : S3x16x12x1024x64.Slices ![0, 0, 0, 0, 0] S1x16x12x1024x64
  shapeCasts_S1x16x12x1024x64_S16x12x1024x64 : S1x16x12x1024x64.ShapeCasts S16x12x1024x64
  slices_S3x16x12x1024x64_S1x16x12x1024x64_1_0_0_0_0 : S3x16x12x1024x64.Slices ![1, 0, 0, 0, 0] S1x16x12x1024x64
  slices_S3x16x12x1024x64_S1x16x12x1024x64_2_0_0_0_0 : S3x16x12x1024x64.Slices ![2, 0, 0, 0, 0] S1x16x12x1024x64
  bcast_S_S16x12x1024x1024 : S_.BroadcastsInDim S16x12x1024x1024 (![] : Fin 0 → Fin S16x12x1024x1024.rank)
  reducesTo_S16x12x1024x1024_S16x12x1024_d3 : S16x12x1024x1024.ReducesTo [3] S16x12x1024
  bcast_S_S16x12x1024 : S_.BroadcastsInDim S16x12x1024 (![] : Fin 0 → Fin S16x12x1024.rank)
  bcast_S16x12x1024_S16x12x1024x1_0_1_2 : S16x12x1024.BroadcastsInDim S16x12x1024x1 (![0, 1, 2] : Fin 3 → Fin S16x12x1024x1.rank)
  bcast_S16x12x1024x1_S16x12x1024x1024_0_1_2_3 : S16x12x1024x1.BroadcastsInDim S16x12x1024x1024 (![0, 1, 2, 3] : Fin 4 → Fin S16x12x1024x1024.rank)
  transposes_S16x12x1024x64_S16x1024x12x64_0_2_1_3 : S16x12x1024x64.Transposes [0, 2, 1, 3] S16x1024x12x64
  shapeCasts_S16x1024x12x64_S16x1024x768 : S16x1024x12x64.ShapeCasts S16x1024x768
  reducesTo_S768x768_S_d0_1 : S768x768.ReducesTo [0, 1] S_
  bcast_S_S768x768 : S_.BroadcastsInDim S768x768 (![] : Fin 0 → Fin S768x768.rank)
  bcast_S768_S1x1x768_2 : S768.BroadcastsInDim S1x1x768 (![2] : Fin 1 → Fin S1x1x768.rank)
  bcast_S1x1x768_S16x1024x768_0_1_2 : S1x1x768.BroadcastsInDim S16x1024x768 (![0, 1, 2] : Fin 3 → Fin S16x1024x768.rank)
  dot_S16x1024x768_S2304x768_S16x1024x2304_2_1_01_0_n_n_wf : DotDims.WF S16x1024x768 S2304x768 S16x1024x2304 [2] [1] [0, 1] [0] [] []
  dot_S16x12x1024x64_S16x12x1024x64_S16x12x1024x1024_3_3_2_2_01_01_wf : DotDims.WF S16x12x1024x64 S16x12x1024x64 S16x12x1024x1024 [3] [3] [2] [2] [0, 1] [0, 1]
  dot_S16x12x1024x1024_S16x12x1024x64_S16x12x1024x64_3_2_2_3_01_01_wf : DotDims.WF S16x12x1024x1024 S16x12x1024x64 S16x12x1024x64 [3] [2] [2] [3] [0, 1] [0, 1]
  dot_S16x1024x768_S768x768_S16x1024x768_2_1_01_0_n_n_wf : DotDims.WF S16x1024x768 S768x768 S16x1024x768 [2] [1] [0, 1] [0] [] []

variable [Facts₀]

def dot_S16x1024x768_S2304x768_S16x1024x2304_2_1_01_0_n_n : DotDims S16x1024x768 S2304x768 S16x1024x2304 where
  lhsContracting := [2]
  rhsContracting := [1]
  lhsNonContracting := [0, 1]
  rhsNonContracting := [0]
  lhsBatch := []
  rhsBatch := []
  wf := dot_S16x1024x768_S2304x768_S16x1024x2304_2_1_01_0_n_n_wf
def dot_S16x12x1024x64_S16x12x1024x64_S16x12x1024x1024_3_3_2_2_01_01 : DotDims S16x12x1024x64 S16x12x1024x64 S16x12x1024x1024 where
  lhsContracting := [3]
  rhsContracting := [3]
  lhsNonContracting := [2]
  rhsNonContracting := [2]
  lhsBatch := [0, 1]
  rhsBatch := [0, 1]
  wf := dot_S16x12x1024x64_S16x12x1024x64_S16x12x1024x1024_3_3_2_2_01_01_wf
def dot_S16x12x1024x1024_S16x12x1024x64_S16x12x1024x64_3_2_2_3_01_01 : DotDims S16x12x1024x1024 S16x12x1024x64 S16x12x1024x64 where
  lhsContracting := [3]
  rhsContracting := [2]
  lhsNonContracting := [2]
  rhsNonContracting := [3]
  lhsBatch := [0, 1]
  rhsBatch := [0, 1]
  wf := dot_S16x12x1024x1024_S16x12x1024x64_S16x12x1024x64_3_2_2_3_01_01_wf
def dot_S16x1024x768_S768x768_S16x1024x768_2_1_01_0_n_n : DotDims S16x1024x768 S768x768 S16x1024x768 where
  lhsContracting := [2]
  rhsContracting := [1]
  lhsNonContracting := [0, 1]
  rhsNonContracting := [0]
  lhsBatch := []
  rhsBatch := []
  wf := dot_S16x1024x768_S768x768_S16x1024x768_2_1_01_0_n_n_wf

class Facts : Prop extends Facts₀ where

variable [Facts]
-- ==== Proof.KRun.lean ====
/-
  The idealized kernel's run, read to the end. @main is thirteen segments: host stretches and three pipelined regions.
  The contents of every unscoped buffer at each boundary are a fold from the launch memory; after the last stretch the
  result buffer holds the last boundary's contents at that buffer, and the four argument arrays are as launched.
-/
import proofs.«141683_j13099650253523_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and the arguments end as launched. -/
theorem run_last : θ_run defs (onTc (τ := τ) (main (F := F))) ⟨m, fun _ => 0, ρ⟩ (fun r => ∀ c : Dev nD,
      r.2.mem ((c.tc : Thread nD τ).loc main_v49) = W13 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v49 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c)⟩)

end Cert.KernelIdeal.Whole

end
-- ==== Proof.Region0.lean ====
/-
  The first projection region's output array.

  The region multiplies 512 rows of the flattened input [16384, 768] by the transposed weight [2304, 768] at each of 32
  grid points and writes the 512 rows of the product [16384, 2304]. When the flattened input is the row-major
  re-laying of X of shape [16, 1024, 768], row r is the row (r / 1024, r % 1024) of X, so the output array is the
  re-laying of the array whose entry (b, n, d) is the sum over k of X (b, n, k) · W (d, k). The row blocks tile the output.
-/
import proofs.«141683_j13099650253523_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-! ## The body's product at an entry -/

theorem lhs0 (i : S512x2304.Idx) (q : dot_S512x768_S2304x768_S512x2304_1_1_0_0_n_n.contr.Idx) :
    (dot_S512x768_S2304x768_S512x2304_1_1_0_0_n_n.lhsIdx i q 0).val = (i 0).val := by
  unfold DotDims.lhsIdx
  rw [dif_neg (show ¬(0 : Fin S512x768.rank) ∈ dot_S512x768_S2304x768_S512x2304_1_1_0_0_n_n.lhsBatch by decide), dif_pos (show (0 : Fin S512x768.rank) ∈ dot_S512x768_S2304x768_S512x2304_1_1_0_0_n_n.lhsNonContracting by decide)]
  rfl
theorem lhs1 (i : S512x2304.Idx) (q : dot_S512x768_S2304x768_S512x2304_1_1_0_0_n_n.contr.Idx) :
    (dot_S512x768_S2304x768_S512x2304_1_1_0_0_n_n.lhsIdx i q 1).val = (q ⟨0, by decide⟩).val :=
  dot_S512x768_S2304x768_S512x2304_1_1_0_0_n_n.lhsIdx_val_of_single rfl i q
theorem rhs0 (i : S512x2304.Idx) (q : dot_S512x768_S2304x768_S512x2304_1_1_0_0_n_n.contr.Idx) :
    (dot_S512x768_S2304x768_S512x2304_1_1_0_0_n_n.rhsIdx i q 0).val = (i 1).val := by
  unfold DotDims.rhsIdx
  rw [dif_neg (show ¬(0 : Fin S2304x768.rank) ∈ dot_S512x768_S2304x768_S512x2304_1_1_0_0_n_n.rhsBatch by decide), dif_pos (show (0 : Fin S2304x768.rank) ∈ dot_S512x768_S2304x768_S512x2304_1_1_0_0_n_n.rhsNonContracting by decide)]
  rfl
theorem rhs1 (i : S512x2304.Idx) (q : dot_S512x768_S2304x768_S512x2304_1_1_0_0_n_n.contr.Idx) :
    (dot_S512x768_S2304x768_S512x2304_1_1_0_0_n_n.rhsIdx i q 1).val = (q ⟨0, by decide⟩).val :=
  dot_S512x768_S2304x768_S512x2304_1_1_0_0_n_n.rhsIdx_val_of_single rfl i q

/-- The stored value at (p, d): the inner product of row p of the input block and row d of the weight. -/
theorem pay_apply (x0 : Vec Ideal S512x768 .bf16) (x1 : Vec Ideal S2304x768 .bf16) (p : Fin 512) (d : Fin 2304) :
    k0_pay1 x0 x1 (ix2 p d) = ∑ k : Fin 768, x0 (ix2 p k) * x1 (ix2 d k) := by
  unfold k0_pay1
  rw [shapeCast_self, shapeCast_self]
  simp only [matmul]
  rw [Ideal.matmul_constant_zero_apply, ← Equiv.sum_comp (contrEquiv1 dot_S512x768_S2304x768_S512x2304_1_1_0_0_n_n 768 rfl rfl).symm]
  refine Finset.sum_congr rfl fun k _ => ?_
  have hk := contrEquiv1_symm_val dot_S512x768_S2304x768_S512x2304_1_1_0_0_n_n 768 rfl rfl k
  have el : dot_S512x768_S2304x768_S512x2304_1_1_0_0_n_n.lhsIdx (ix2 p d) ((contrEquiv1 dot_S512x768_S2304x768_S512x2304_1_1_0_0_n_n 768 rfl rfl).symm k) = ix2 p k := funext fun ax => Fin.ext (by
    match ax with
    | ⟨0, _⟩ => exact lhs0 _ _
    | ⟨1, _⟩ => exact (lhs1 _ _).trans hk)
  have er : dot_S512x768_S2304x768_S512x2304_1_1_0_0_n_n.rhsIdx (ix2 p d) ((contrEquiv1 dot_S512x768_S2304x768_S512x2304_1_1_0_0_n_n 768 rfl rfl).symm k) = ix2 d k := funext fun ax => Fin.ext (by
    match ax with
    | ⟨0, _⟩ => exact rhs0 _ _
    | ⟨1, _⟩ => exact (rhs1 _ _).trans hk)
  rw [el, er]

/-! ## Rows of the flattened arrays -/

/-- An array [16, 1024, C] re-laid as [16384, C], read at (r, k): the entry (r / 1024, r % 1024, k). -/
theorem flat_read {α : Type} {C : Nat} (Y : (⟨3, ![16, 1024, C]⟩ : Shape).Idx → α)
    (hc : (⟨3, ![16, 1024, C]⟩ : Shape).ShapeCasts ⟨2, ![16384, C]⟩) (r : Fin 16384) (k : Fin C) :
    shapeCast ⟨2, ![16384, C]⟩ Y hc (ix2 r k)
      = Y (ix3 (⟨r.val / 1024, by have := r.isLt; omega⟩ : Fin 16) (⟨r.val % 1024, by omega⟩ : Fin 1024) k) :=
  shapeCast_apply Y hc _ _ (by
    rw [Shape.rowMajor_val_three, Shape.rowMajor_val_two]
    show (r.val / 1024 * 1024 + r.val % 1024) * C + k.val = r.val * C + k.val
    rw [Nat.div_add_mod' r.val 1024])

/-- The projection as one array: entry (b, n, d) is the sum over k of X (b, n, k) · W (d, k). -/
def proj (X : S16x1024x768.Idx → EReal) (Wt : S2304x768.Idx → EReal) : (⟨3, ![16, 1024, 2304]⟩ : Shape).Idx → EReal := fun i =>
  ∑ k : Fin 768, X (ix3 (i 0) (i 1) k) * Wt (ix2 (i 2) k)

/-- One grid point: the stored value at an entry of block tt is the re-laid projection at the entry's row and column. -/
theorem point_eq (x0 : Vec Ideal S512x768 .bf16) (x1 : Vec Ideal S2304x768 .bf16) (X : S16x1024x768.Idx → EReal)
    (Wt : S2304x768.Idx → EReal) (hcx : S16x1024x768.ShapeCasts S16384x768)
    (hco : (⟨3, ![16, 1024, 2304]⟩ : Shape).ShapeCasts S16384x2304) (r0 : Nat)
    (h0 : ∀ (p : Fin 512) (k : Fin 768) (hr : r0 + p.val < 16384), x0 (ix2 p k) = shapeCast S16384x768 X hcx (ix2 ⟨r0 + p.val, hr⟩ k))
    (h1 : ∀ d k, x1 (ix2 d k) = Wt (ix2 d k))
    (j : S512x2304.Idx) (i : S16384x2304.Idx) (hi0 : (i 0).val = r0 + (j 0).val) (hi1 : (i 1).val = (j 1).val) :
    k0_pay1 x0 x1 j = shapeCast S16384x2304 (proj X Wt) hco i := by
  obtain ⟨p, d, rfl⟩ : ∃ (p : Fin 512) (d : Fin 2304), j = ix2 p d := ⟨j 0, j 1, eq_ix2 j⟩
  have hr : r0 + p.val < 16384 := by have := (i 0).isLt; change (i 0).val < 16384 at this; change (i 0).val = r0 + p.val at hi0; omega
  have hi : i = ix2 (⟨r0 + p.val, hr⟩ : Fin 16384) d := by
    funext a; apply Fin.ext
    match a with
    | ⟨0, _⟩ => exact hi0
    | ⟨1, _⟩ => exact hi1
  rw [hi, pay_apply, flat_read]
  unfold proj
  refine Finset.sum_congr rfl fun k _ => ?_
  rw [h0 p k hr, h1, flat_read]

/-- Where each window's block sits at a grid point, decided over the grid. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (c : Dev nD) (X : S16x1024x768.Idx → EReal) (Wt : S2304x768.Idx → EReal)
  (hcx : S16x1024x768.ShapeCasts S16384x768) (hco : (⟨3, ![16, 1024, 2304]⟩ : Shape).ShapeCasts S16384x2304)
  (hx : (V c main_v27 : S16384x768.Idx → EReal) = shapeCast S16384x768 X hcx)
  (hw : (V c main_v12 : S2304x768.Idx → EReal) = Wt)
include hx hw

/-- What point t writes back is block t of the re-laid projection. -/
theorem flushed_eq (t : Fin cfg0.N) :
    (dat0 V c).flushed 2 t = ((cfg0.win 2).blk t).view.read (Elt Ideal) (shapeCast S16384x2304 (proj X Wt) hco) := by
  show (cfg0.win 2).cut (grid0.coords t) ((dat0 V c).after 2 t) = _
  rw [after0_2]
  unfold out0_2
  rw [View.canon_unit_zero zero2]
  simp only [View.ld_unit_zero (S := S512x768) zero2, View.ld_unit_zero (S := S2304x768) zero2]
  obtain ⟨a0, a1, b0, b1, c0, c1⟩ := idx_facts t
  funext j
  show k0_pay1 (iblk0 V c 0 t) (iblk0 V c 1 t) j
    = shapeCast S16384x2304 (proj X Wt) hco (((cfg0.win 2).blk t).view.emb j)
  refine point_eq _ _ X Wt hcx hco (t.val * 512) ?_ ?_ j _ ?_ ?_
  · intro p k hr
    show V c main_v27 (((cfg0.win 0).blk t).view.emb (ix2 p k)) = _
    refine (congrFun hx _).trans (congrArg _ (funext fun a => Fin.ext ?_))
    match a with
    | ⟨0, _⟩ => show win0_0.index t (0 : Fin 2) * 512 + 1 * p.val = t.val * 512 + p.val; omega
    | ⟨1, _⟩ => show win0_0.index t (1 : Fin 2) * 768 + 1 * k.val = k.val; omega
  · intro d k
    show V c main_v12 (((cfg0.win 1).blk t).view.emb (ix2 d k)) = _
    refine (congrFun hw _).trans (congrArg _ (funext fun a => Fin.ext ?_))
    match a with
    | ⟨0, _⟩ => show win0_1.index t (0 : Fin 2) * 2304 + 1 * d.val = d.val; omega
    | ⟨1, _⟩ => show win0_1.index t (1 : Fin 2) * 768 + 1 * k.val = k.val; omega
  · show win0_2.index t (0 : Fin 2) * 512 + 1 * (j 0).val = t.val * 512 + (j 0).val; omega
  · show win0_2.index t (1 : Fin 2) * 2304 + 1 * (j 1).val = (j 1).val; omega

omit hx hw in
/-- An entry of the output array is in point t's block iff each coordinate is in the block's range on its axis. -/
theorem mem_blk (t : Fin cfg0.N) (i : S16384x2304.Idx) :
    i ∈ ((cfg0.win 2).blk t).view.set ↔ ∀ a : Fin 2, win0_2.index t a * S512x2304.size a ≤ (i a).val ∧ (i a).val < win0_2.index t a * S512x2304.size a + S512x2304.size a := by
  show i ∈ ((View.whole main_v28).slice (win0_2.rect t)).set ↔ _
  rw [View.set_slice_whole, Rect.mem_set_unit]
  exact Iff.rfl

omit hx hw in
/-- The row blocks tile the output array: row r is in point r / 512's block. -/
theorem cover (i : S16384x2304.Idx) : ∃ t : Fin cfg0.N, (cfg0.win 2).flush t = true ∧ i ∈ ((cfg0.win 2).blk t).view.set := by
  have hN : grid0.N = 32 := N_0
  have hi0 : (i 0).val < 16384 := (i 0).isLt
  have hi1 : (i 1).val < 2304 := (i 1).isLt
  let t : Fin cfg0.N := ⟨(i 0).val / 512, by show (i 0).val / 512 < grid0.N; omega⟩
  refine ⟨t, flush0_2 t, ?_⟩
  rw [mem_blk]
  obtain ⟨a0, a1, b0, b1, c0, c1⟩ := idx_facts t
  have htv : t.val = (i 0).val / 512 := rfl
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2304 ≤ (i 1).val ∧ (i 1).val < win0_2.index t (1 : Fin 2) * 2304 + 2304; omega

/-- THE OUTPUT ARRAY after the region: the re-laid projection. -/
theorem final : (dat0 V c).arrAt 2 cfg0.N = shapeCast S16384x2304 (proj X Wt) hco :=
  (dat0 V c).arrAt_eq_of_cover 2 (shapeCast S16384x2304 (proj X Wt) hco) (fun t _ => flushed_eq V c X Wt hcx hco hx hw t) cover

end

end Cert.KernelIdeal.Region0

end
-- ==== Proof.Softmax.lean ====
/-
  One head of scaled dot-product attention on the extended reals, as functions of coordinates.

  For query, key and value matrices q, k, v (1024 rows of 64 entries) the score of query row n against key row j is
  the inner product of the two rows times 1/8. A row of scores is turned into weights by the softmax: subtract the
  row's maximum (taken from -inf, and once more against -inf), exponentiate, divide by the row's sum of exponentials.
  The head's output at (n, e) is the weighted sum over j of v at (j, e). Nothing here asks the entries to be finite:
  both programs compute exactly these expressions, so no law of the extended reals beyond rewriting is needed.
-/
import Idealize.ShloMosaic.PureOps.Ideal
import Idealize.ShloMosaic.Lib.ValueIdx

noncomputable section

open scoped BigOperators

namespace Cert.Attn

open Idealize.ShloMosaic

/-- The scale 1/8 as the programs write it. -/
def eighth : EReal := Ideal.ofBits .f32 0x3E000000#32
/-- The value -inf as the programs write it. -/
def negInf : EReal := Ideal.ofBits .f32 0xFF800000#32

/-- The softmax weight of entry j of a row of scores s: exp (s j - M) / sum over j' of exp (s j' - M), with M the row's
    maximum taken from -inf. -/
def weight (s : Fin 1024 → EReal) (j : Fin 1024) : EReal :=
  Ideal.div (Ideal.exp (s j - max negInf (Finset.univ.fold max negInf s)))
    (∑ j' : Fin 1024, Ideal.exp (s j' - max negInf (Finset.univ.fold max negInf s)))

/-- The scaled score of query row n against key row j. -/
def score (q k : Fin 1024 → Fin 64 → EReal) (n j : Fin 1024) : EReal := (∑ e : Fin 64, q n e * k j e) * eighth

/-- One head's output at (n, e). -/
def head (q k v : Fin 1024 → Fin 64 → EReal) (n : Fin 1024) (e : Fin 64) : EReal :=
  ∑ j : Fin 1024, weight (score q k n) j * v j e

end Cert.Attn

end
-- ==== Proof.LibKeepdims.lean ====
/-
  Column ("keepdims") layouts read at an index given by coordinates.

  A row statistic of a matrix (a row sum, a row maximum) is a vector `[a]`; to combine it with the matrix again it is
  first viewed as the one-column matrix `[a, 1]` and then repeated along the columns to `[a, b]`. A statistic of the
  whole matrix is a one-element vector `[1]`, viewed as `[1, 1]` and repeated down the rows to the column `[a, 1]`.
  And a matrix that is one block of a rank-4 array is the block `[1, 1, a, b]` with its two unit axes dropped, or
  the matrix with two unit axes put in front. Each lemma here says which ONE element of the operand such a view reads
  at an index written by coordinates: a shape cast keeps the row-major position, and a broadcast reads coordinate `0`
  on an axis of size one. They complement the leading-unit-axis casts and the row broadcast `[1, b] → [a, b]` of the
  library's layout lemmas; all are general in the sizes.
-/
import Idealize.ShloMosaic.Lib.ValueLayout

namespace Cert.Keepdims

open Idealize.ShloMosaic Idealize.ShloMosaic.ValueIdx

variable {α : Type}

/-! ## A vector as a one-column matrix, and the column repeated -/

/-- An `[a]` vector cast to the column `[a, 1]` reads, at `(i, u)`, the vector at `i`: the position `i · 1 + u` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One number as a `[1, 1]` matrix, repeated down a column -/

/-- A one-element vector `[1]` cast to `[1, 1]` reads its one element everywhere. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) := by
  obtain rfl : u = 0 := Subsingleton.elim _ _
  exact shapeCast_a_a1_apply x h 0 v

/-- A `[1, 1]` matrix broadcast to the column `[a, 1]` reads its one element in every row. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  obtain rfl : u = 0 := Subsingleton.elim _ _
  exact broadcastTo_1b_ab_apply v h p 0

/-! ## Two leading unit axes dropped from, or added to, a matrix -/

/-- A `[1, 1, a, b]` block cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- A matrix `[a, b]` cast to the block `[1, 1, a, b]` reads, at `(u, v, i, j)`, the matrix at `(i, j)`, whatever the
    two unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.add_zero])

end Cert.Keepdims
-- ==== Proof.AttnBody.lean ====
/-
  The attention body's stored value at an entry.

  At one grid point the body loads a query, a key and a value block, each [1, 1024, 64]. It forms the scores
  q · kᵀ scaled by 1/8, turns each row into softmax weights (row maximum from -inf, exponentials, row sum, quotient)
  and stores weights · v. Read at an entry (n, e) of the stored block this is the head's output of the three blocks
  viewed as 1024 × 64 matrices: the two contractions are plain sums over the contracted coordinate, the row maximum is
  the fold of max over the row, the row sum the sum over the row, and a row statistic spread over the columns reads the
  statistic of that row. Changes of float format are the identity on extended reals.
-/
import proofs.«141683_j13099650253523_1_alg».proof.Proof.Gen.KernelIdeal.Skeleton
import proofs.«141683_j13099650253523_1_alg».proof.Proof.Softmax
import proofs.«141683_j13099650253523_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.AttnBody

open Cert.KernelIdeal Cert.KernelIdeal.Gen Idealize.ShloMosaic Idealize.ShloMosaic.ValueIdx Cert.Attn Cert.Keepdims

/-! ## The two contractions at an entry -/

theorem qk_lhs0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem qk_lhs1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem qk_rhs0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem qk_rhs1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- Query rows against key rows: entry (n, j) of the product is the inner product of row n of a and row j of b. -/
theorem scores_read (a b : FVec Ideal S1024x64 .bf16) (n j : Fin 1024) :
    matmul dot_S1024x64_S1024x64_S1024x1024_1_1_0_0_n_n none a b (constant S1024x1024 .f32 0x00000000#32) (ix2 n j)
      = ∑ e : Fin 64, a (ix2 n e) * b (ix2 j e) := by
  simp only [matmul]
  rw [Ideal.matmul_constant_zero_apply, ← Equiv.sum_comp (contrEquiv1 dot_S1024x64_S1024x64_S1024x1024_1_1_0_0_n_n 64 rfl rfl).symm]
  refine Finset.sum_congr rfl fun e _ => ?_
  have hk := contrEquiv1_symm_val dot_S1024x64_S1024x64_S1024x1024_1_1_0_0_n_n 64 rfl rfl e
  have el : dot_S1024x64_S1024x64_S1024x1024_1_1_0_0_n_n.lhsIdx (ix2 n j) ((contrEquiv1 dot_S1024x64_S1024x64_S1024x1024_1_1_0_0_n_n 64 rfl rfl).symm e) = ix2 n e := funext fun ax => Fin.ext (by
    match ax with
    | ⟨0, _⟩ => exact qk_lhs0 _ _
    | ⟨1, _⟩ => exact (qk_lhs1 _ _).trans hk)
  have er : dot_S1024x64_S1024x64_S1024x1024_1_1_0_0_n_n.rhsIdx (ix2 n j) ((contrEquiv1 dot_S1024x64_S1024x64_S1024x1024_1_1_0_0_n_n 64 rfl rfl).symm e) = ix2 j e := funext fun ax => Fin.ext (by
    match ax with
    | ⟨0, _⟩ => exact qk_rhs0 _ _
    | ⟨1, _⟩ => exact (qk_rhs1 _ _).trans hk)
  rw [el, er]

theorem pv_lhs0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem pv_lhs1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem pv_rhs0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem pv_rhs1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- Weights against value columns: entry (n, e) of the product is the sum over j of p at (n, j) times v at (j, e). -/
theorem wsum_read (p : FVec Ideal S1024x1024 .bf16) (v : FVec Ideal S1024x64 .bf16) (n : Fin 1024) (e : Fin 64) :
    matmul dot_S1024x1024_S1024x64_S1024x64_1_0_0_1_n_n none p v (constant S1024x64 .f32 0x00000000#32) (ix2 n e)
      = ∑ j : Fin 1024, p (ix2 n j) * v (ix2 j e) := by
  simp only [matmul]
  rw [Ideal.matmul_constant_zero_apply, ← Equiv.sum_comp (contrEquiv1 dot_S1024x1024_S1024x64_S1024x64_1_0_0_1_n_n 1024 rfl rfl).symm]
  refine Finset.sum_congr rfl fun j _ => ?_
  have hk := contrEquiv1_symm_val dot_S1024x1024_S1024x64_S1024x64_1_0_0_1_n_n 1024 rfl rfl j
  have el : dot_S1024x1024_S1024x64_S1024x64_1_0_0_1_n_n.lhsIdx (ix2 n e) ((contrEquiv1 dot_S1024x1024_S1024x64_S1024x64_1_0_0_1_n_n 1024 rfl rfl).symm j) = ix2 n j := funext fun ax => Fin.ext (by
    match ax with
    | ⟨0, _⟩ => exact pv_lhs0 _ _
    | ⟨1, _⟩ => exact (pv_lhs1 _ _).trans hk)
  have er : dot_S1024x1024_S1024x64_S1024x64_1_0_0_1_n_n.rhsIdx (ix2 n e) ((contrEquiv1 dot_S1024x1024_S1024x64_S1024x64_1_0_0_1_n_n 1024 rfl rfl).symm j) = ix2 j e := funext fun ax => Fin.ext (by
    match ax with
    | ⟨0, _⟩ => exact (pv_rhs0 _ _).trans hk
    | ⟨1, _⟩ => exact pv_rhs1 _ _)
  rw [el, er]

/-! ## Row statistics -/

/-- A row's maximum from -inf is the fold of max over the row's entries. -/
theorem rowmax_read (S : FVec Ideal S1024x1024 .f32) (h : S1024x1024.Reduces [1] S1024) (hφ : FKind.Formats .f32)
    (hacc : (0xFF800000#32 : BitVec 32) = FKind.maximumf.neutral .f32 hφ) (n : Fin 1024) :
    multiReduction .maximumf [1] S1024 S 0xFF800000#32 h hφ hacc (ix1 n)
      = Finset.univ.fold max negInf (fun j : Fin 1024 => S (ix2 n j)) := by
  rw [Ideal.multiReduction_maximumf_single]
  exact congrArg (Finset.univ.fold max negInf) (funext fun j => congrArg S (funext fun ax => Fin.ext (by
    match ax with
    | ⟨0, _⟩ => rfl
    | ⟨1, _⟩ => rfl)))

/-- A row's sum is the sum over the row's entries. -/
theorem rowsum_read (E : FVec Ideal S1024x1024 .f32) (h : S1024x1024.Reduces [1] S1024) (hφ : FKind.Formats .f32)
    (hacc : (0x00000000#32 : BitVec 32) = FKind.add.neutral .f32 hφ) (n : Fin 1024) :
    multiReduction .add [1] S1024 E 0x00000000#32 h hφ hacc (ix1 n) = ∑ j : Fin 1024, E (ix2 n j) := by
  rw [Ideal.multiReduction_add_single]
  exact Finset.sum_congr rfl fun j _ => congrArg E (funext fun ax => Fin.ext (by
    match ax with
    | ⟨0, _⟩ => rfl
    | ⟨1, _⟩ => rfl))

/-- A row statistic made a column and repeated along the columns reads the statistic of the entry's row. -/
theorem column_read (w : FVec Ideal S1024 .f32) (h : S1024.ShapeCasts S1024x1) (h' : S1024x1.Broadcasts S1024x1024)
    (n j : Fin 1024) : broadcastTo S1024x1024 (shapeCast S1024x1 w h) h' (ix2 n j) = w (ix1 n) := by
  rw [broadcastTo_a1_ab_apply, shapeCast_a_a1_apply]

/-! ## The softmax weights and the stored value -/

/-- The weight matrix the body builds from a score matrix S, read at (n, j): the softmax weight of entry j of row n. -/
theorem weights_read (S : FVec Ideal S1024x1024 .f32) (h : S1024x1024.Reduces [1] S1024) (hφ hφ' : FKind.Formats .f32)
    (hacc : (0xFF800000#32 : BitVec 32) = FKind.maximumf.neutral .f32 hφ)
    (hacc' : (0x00000000#32 : BitVec 32) = FKind.add.neutral .f32 hφ')
    (hc : S1024.ShapeCasts S1024x1) (hb : S1024x1.Broadcasts S1024x1024) (hlt : FTy.bf16.bits < FTy.f32.bits) (n j : Fin 1024) :
    truncf .bf16 (divf
        (exp (subf S (broadcastTo S1024x1024 (shapeCast S1024x1 (maximumf (broadcast S1024 (Scalar.ofBits .f32 0xFF800000#32))
          (multiReduction .maximumf [1] S1024 S 0xFF800000#32 h hφ hacc)) hc) hb)))
        (broadcastTo S1024x1024 (shapeCast S1024x1 (multiReduction .add [1] S1024
          (exp (subf S (broadcastTo S1024x1024 (shapeCast S1024x1 (maximumf (broadcast S1024 (Scalar.ofBits .f32 0xFF800000#32))
            (multiReduction .maximumf [1] S1024 S 0xFF800000#32 h hφ hacc)) hc) hb)))
          0x00000000#32 h hφ' hacc') hc) hb)) hlt (ix2 n j)
      = weight (fun j' => S (ix2 n j')) j := by
  rw [truncf_apply, divf_apply, column_read, rowsum_read]
  have hexp : ∀ j' : Fin 1024, (exp (subf S (broadcastTo S1024x1024 (shapeCast S1024x1 (maximumf (broadcast S1024 (Scalar.ofBits .f32 0xFF800000#32))
          (multiReduction .maximumf [1] S1024 S 0xFF800000#32 h hφ hacc)) hc) hb))) (ix2 n j')
        = Ideal.exp (S (ix2 n j') - max negInf (Finset.univ.fold max negInf (fun j'' : Fin 1024 => S (ix2 n j'')))) := by
    intro j'
    show Ideal.exp (S (ix2 n j') - _) = _
    rw [column_read, maximumf_apply, rowmax_read]
    rfl
  simp only [hexp]
  rfl

/-- THE STORED VALUE at (u, n, e): the head's output of the three loaded blocks viewed as matrices. -/
theorem pay_apply (x0 x1 x2 : Vec Ideal S1x1024x64 .bf16) (u : Fin 1) (n : Fin 1024) (e : Fin 64) :
    k1_pay1 x0 x1 x2 (ix3 u n e)
      = head (fun a b => x0 (ix3 (0 : Fin 1) a b)) (fun a b => x1 (ix3 (0 : Fin 1) a b)) (fun a b => x2 (ix3 (0 : Fin 1) a b)) n e := by
  unfold k1_pay1
  dsimp only
  rw [shapeCast_ab_1ab_apply, wsum_read]
  unfold head
  refine Finset.sum_congr rfl fun j _ => ?_
  refine (congrArg₂ (· * ·) (weights_read _ _ _ _ _ _ _ _ _ n j) (shapeCast_1ab_ab_apply _ _ j e)).trans ?_
  refine congrArg (fun s => weight s j * x2 (ix3 (0 : Fin 1) j e)) (funext fun j' => ?_)
  rw [mulf_apply, broadcast_apply, scores_read]
  unfold score
  refine congrArg (· * eighth) (Finset.sum_congr rfl fun e' _ => ?_)
  rw [shapeCast_1ab_ab_apply, shapeCast_1ab_ab_apply]

end Cert.KernelIdeal.AttnBody

end
-- ==== Proof.Region1.lean ====
/-
  The attention region's output array.

  The region runs the attention body at 192 grid points; point g reads block g of each of its three input arrays
  [192, 1024, 64] and writes block g of its output array. When the three inputs are the row-major re-layings of arrays
  Q, K, V of shape [16, 12, 1024, 64], block g is the 1024 × 64 matrix at (g / 12, g % 12), so the output array is the
  re-laying of the array whose entry (b, h, n, e) is the head's output of the matrices of Q, K, V at (b, h). The blocks
  tile the output array: entry (g, n, e) lies in point g's block.
-/
import proofs.«141683_j13099650253523_1_alg».proof.Proof.Gen.KernelIdeal.Frame
import proofs.«141683_j13099650253523_1_alg».proof.Proof.AttnBody
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx Cert.Attn
open Idealize.SL.Sem
open Idealize.ShloMosaic.Pipeline (Dat Cfg Window)

variable (V : (c : Dev nD) → (b : Ref sig .tc) → Buf (Elt Ideal) ((c : Thread nD τ).loc b))

theorem zero3 : (![0, 0, 0] : Fin 3 → Nat) = fun _ => 0 := funext fun a => by fin_cases a <;> rfl

/-- An array [16, 12, 1024, 64] re-laid as [192, 1024, 64], read at (g, n, e): the entry (g / 12, g % 12, n, e). -/
theorem flat_read {α : Type} (Y : S16x12x1024x64.Idx → α) (hc : S16x12x1024x64.ShapeCasts S192x1024x64) (g : Fin 192)
    (n : Fin 1024) (e : Fin 64) :
    shapeCast S192x1024x64 Y hc (ix3 g n e)
      = Y (ix4 (⟨g.val / 12, by have := g.isLt; omega⟩ : Fin 16) (⟨g.val % 12, by omega⟩ : Fin 12) n e) :=
  shapeCast_apply Y hc _ _ (by
    rw [Shape.rowMajor_val_four, Shape.rowMajor_val_three]
    show ((g.val / 12 * 12 + g.val % 12) * 1024 + n.val) * 64 + e.val = (g.val * 1024 + n.val) * 64 + e.val
    omega)

/-- Every head's output, as one array: entry (b, h, n, e) from the matrices of Q, K, V at (b, h). -/
def headsOf (Q K W : S16x12x1024x64.Idx → EReal) : S16x12x1024x64.Idx → EReal := fun i =>
  head (fun n e => Q (ix4 (i 0) (i 1) n e)) (fun n e => K (ix4 (i 0) (i 1) n e)) (fun n e => W (ix4 (i 0) (i 1) n e)) (i 2) (i 3)

/-- One grid point: when the three loaded blocks are block g of the re-laid Q, K, V, the stored value at an entry is the
    re-laid heads' array at the entry of block g with the same coordinates inside the block. -/
theorem point_eq (x0 x1 x2 : Vec Ideal S1x1024x64 .bf16) (g : Fin 192) (Q K W : S16x12x1024x64.Idx → EReal)
    (hc : S16x12x1024x64.ShapeCasts S192x1024x64)
    (h0 : ∀ n e, x0 (ix3 (0 : Fin 1) n e) = shapeCast S192x1024x64 Q hc (ix3 g n e))
    (h1 : ∀ n e, x1 (ix3 (0 : Fin 1) n e) = shapeCast S192x1024x64 K hc (ix3 g n e))
    (h2 : ∀ n e, x2 (ix3 (0 : Fin 1) n e) = shapeCast S192x1024x64 W hc (ix3 g n e))
    (j : S1x1024x64.Idx) (i : S192x1024x64.Idx) (hi0 : (i 0).val = g.val) (hi1 : (i 1).val = (j 1).val)
    (hi2 : (i 2).val = (j 2).val) :
    k1_pay1 x0 x1 x2 j = shapeCast S192x1024x64 (headsOf Q K W) hc i := by
  obtain ⟨u, n, e, rfl⟩ : ∃ (u : Fin 1) (n : Fin 1024) (e : Fin 64), j = ix3 u n e := ⟨j 0, j 1, j 2, eq_ix3 j⟩
  have hi : i = ix3 g n e := by
    funext a; apply Fin.ext
    match a with
    | ⟨0, _⟩ => exact hi0
    | ⟨1, _⟩ => exact hi1
    | ⟨2, _⟩ => exact hi2
  rw [hi, AttnBody.pay_apply, flat_read]
  unfold headsOf
  simp only [h0, h1, h2, flat_read]

/-- Where each window's block sits at a grid point, decided over the grid: block t along the first axis. -/
theorem idx_facts : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

section
variable (c : Dev nD) (Q K W : S16x12x1024x64.Idx → EReal) (hc : S16x12x1024x64.ShapeCasts S192x1024x64)
  (hq : (V c main_v38 : S192x1024x64.Idx → EReal) = shapeCast S192x1024x64 Q hc)
  (hk : (V c main_v40 : S192x1024x64.Idx → EReal) = shapeCast S192x1024x64 K hc)
  (hv : (V c main_v42 : S192x1024x64.Idx → EReal) = shapeCast S192x1024x64 W hc)
include hq hk hv

/-- What point t writes back is block t of the re-laid heads' array. -/
theorem flushed_eq (t : Fin cfg1.N) :
    (dat1 V c).flushed 3 t = ((cfg1.win 3).blk t).view.read (Elt Ideal) (shapeCast S192x1024x64 (headsOf Q K W) hc) := by
  show (cfg1.win 3).cut (grid1.coords t) ((dat1 V c).after 3 t) = _
  rw [after1_3]
  unfold out1_3
  rw [View.canon_unit_zero zero3]
  simp only [View.ld_unit_zero (S := S1x1024x64) zero3]
  obtain ⟨a0, a1, a2, b0, b1, b2, c0, c1, c2, d0, d1, d2⟩ := idx_facts t
  have ht : t.val < 192 := by have := t.isLt; have hN : grid1.N = 192 := N_1; exact hN ▸ this
  funext j
  show k1_pay1 (iblk1 V c 0 t) (iblk1 V c 1 t) (iblk1 V c 2 t) j
    = shapeCast S192x1024x64 (headsOf Q K W) hc (((cfg1.win 3).blk t).view.emb j)
  refine point_eq _ _ _ ⟨t.val, ht⟩ Q K W hc ?_ ?_ ?_ j _ ?_ ?_ ?_
  · intro n e
    show V c main_v38 (((cfg1.win 0).blk t).view.emb (ix3 (0 : Fin 1) n e)) = _
    refine (congrFun hq _).trans (congrArg _ (funext fun a => Fin.ext ?_))
    match a with
    | ⟨0, _⟩ => show win1_0.index t (0 : Fin 3) * 1 + 1 * 0 = t.val; omega
    | ⟨1, _⟩ => show win1_0.index t (1 : Fin 3) * 1024 + 1 * n.val = n.val; omega
    | ⟨2, _⟩ => show win1_0.index t (2 : Fin 3) * 64 + 1 * e.val = e.val; omega
  · intro n e
    show V c main_v40 (((cfg1.win 1).blk t).view.emb (ix3 (0 : Fin 1) n e)) = _
    refine (congrFun hk _).trans (congrArg _ (funext fun a => Fin.ext ?_))
    match a with
    | ⟨0, _⟩ => show win1_1.index t (0 : Fin 3) * 1 + 1 * 0 = t.val; omega
    | ⟨1, _⟩ => show win1_1.index t (1 : Fin 3) * 1024 + 1 * n.val = n.val; omega
    | ⟨2, _⟩ => show win1_1.index t (2 : Fin 3) * 64 + 1 * e.val = e.val; omega
  · intro n e
    show V c main_v42 (((cfg1.win 2).blk t).view.emb (ix3 (0 : Fin 1) n e)) = _
    refine (congrFun hv _).trans (congrArg _ (funext fun a => Fin.ext ?_))
    match a with
    | ⟨0, _⟩ => show win1_2.index t (0 : Fin 3) * 1 + 1 * 0 = t.val; omega
    | ⟨1, _⟩ => show win1_2.index t (1 : Fin 3) * 1024 + 1 * n.val = n.val; omega
    | ⟨2, _⟩ => show win1_2.index t (2 : Fin 3) * 64 + 1 * e.val = e.val; omega
  · show win1_3.index t (0 : Fin 3) * 1 + 1 * (j 0).val = t.val
    have hj : (j 0).val < 1 := (j 0).isLt
    omega
  · show win1_3.index t (1 : Fin 3) * 1024 + 1 * (j 1).val = (j 1).val; omega
  · show win1_3.index t (2 : Fin 3) * 64 + 1 * (j 2).val = (j 2).val; omega

omit hq hk hv in
/-- An entry of the output array is in point t's block iff each coordinate is in the block's range on its axis. -/
theorem mem_blk (t : Fin cfg1.N) (i : S192x1024x64.Idx) :
    i ∈ ((cfg1.win 3).blk t).view.set ↔ ∀ a : Fin 3, win1_3.index t a * S1x1024x64.size a ≤ (i a).val ∧ (i a).val < win1_3.index t a * S1x1024x64.size a + S1x1024x64.size a := by
  show i ∈ ((View.whole main_v43).slice (win1_3.rect t)).set ↔ _
  rw [View.set_slice_whole, Rect.mem_set_unit]
  exact Iff.rfl

omit hq hk hv in
/-- The blocks tile the output array: entry (g, n, e) is in point g's block. -/
theorem cover (i : S192x1024x64.Idx) : ∃ t : Fin cfg1.N, (cfg1.win 3).flush t = true ∧ i ∈ ((cfg1.win 3).blk t).view.set := by
  have hN : grid1.N = 192 := N_1
  have hi0 : (i 0).val < 192 := (i 0).isLt
  have hi1 : (i 1).val < 1024 := (i 1).isLt
  have hi2 : (i 2).val < 64 := (i 2).isLt
  let t : Fin cfg1.N := ⟨(i 0).val, by show (i 0).val < grid1.N; omega⟩
  refine ⟨t, flush1_3 t, ?_⟩
  rw [mem_blk]
  obtain ⟨a0, a1, a2, b0, b1, b2, c0, c1, c2, d0, d1, d2⟩ := idx_facts t
  have htv : t.val = (i 0).val := rfl
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 64 ≤ (i 2).val ∧ (i 2).val < win1_3.index t (2 : Fin 3) * 64 + 64; omega

/-- THE OUTPUT ARRAY after the region: the re-laid heads' array. -/
theorem final : (dat1 V c).arrAt 3 cfg1.N = shapeCast S192x1024x64 (headsOf Q K W) hc :=
  (dat1 V c).arrAt_eq_of_cover 3 (shapeCast S192x1024x64 (headsOf Q K W) hc) (fun t _ => flushed_eq V c Q K W hc hq hk hv t) cover

end

end Cert.KernelIdeal.Region1

end
-- ==== Proof.Region2.lean ====
/-
  The output projection region's output array.

  The region multiplies 512 rows of the flattened attention output [16384, 768] by the transposed weight [768, 768] at
  each of 32 grid points, adds the bias to every row, and writes the 512 rows of the result [16384, 768]. When the
  flattened input is the row-major re-laying of X of shape [16, 1024, 768], the output array is the re-laying of the
  array whose entry (b, n, d) is the sum over k of X (b, n, k) · W (d, k), plus the bias at d. The row blocks tile it.
-/
import proofs.«141683_j13099650253523_1_alg».proof.Proof.Gen.KernelIdeal.Frame
import proofs.«141683_j13099650253523_1_alg».proof.Proof.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-! ## The body's value at an entry -/

theorem lhs0 (i : S512x768.Idx) (q : dot_S512x768_S768x768_S512x768_1_1_0_0_n_n.contr.Idx) : (dot_S512x768_S768x768_S512x768_1_1_0_0_n_n.lhsIdx i q 0).val = (i 0).val := by
  unfold DotDims.lhsIdx
  rw [dif_neg (show ¬(0 : Fin S512x768.rank) ∈ dot_S512x768_S768x768_S512x768_1_1_0_0_n_n.lhsBatch by decide), dif_pos (show (0 : Fin S512x768.rank) ∈ dot_S512x768_S768x768_S512x768_1_1_0_0_n_n.lhsNonContracting by decide)]
  rfl
theorem lhs1 (i : S512x768.Idx) (q : dot_S512x768_S768x768_S512x768_1_1_0_0_n_n.contr.Idx) : (dot_S512x768_S768x768_S512x768_1_1_0_0_n_n.lhsIdx i q 1).val = (q ⟨0, by decide⟩).val :=
  dot_S512x768_S768x768_S512x768_1_1_0_0_n_n.lhsIdx_val_of_single rfl i q
theorem rhs0 (i : S512x768.Idx) (q : dot_S512x768_S768x768_S512x768_1_1_0_0_n_n.contr.Idx) : (dot_S512x768_S768x768_S512x768_1_1_0_0_n_n.rhsIdx i q 0).val = (i 1).val := by
  unfold DotDims.rhsIdx
  rw [dif_neg (show ¬(0 : Fin S768x768.rank) ∈ dot_S512x768_S768x768_S512x768_1_1_0_0_n_n.rhsBatch by decide), dif_pos (show (0 : Fin S768x768.rank) ∈ dot_S512x768_S768x768_S512x768_1_1_0_0_n_n.rhsNonContracting by decide)]
  rfl
theorem rhs1 (i : S512x768.Idx) (q : dot_S512x768_S768x768_S512x768_1_1_0_0_n_n.contr.Idx) : (dot_S512x768_S768x768_S512x768_1_1_0_0_n_n.rhsIdx i q 1).val = (q ⟨0, by decide⟩).val :=
  dot_S512x768_S768x768_S512x768_1_1_0_0_n_n.rhsIdx_val_of_single rfl i q

/-- The stored value at (p, d): the inner product of row p of the input block and row d of the weight, plus the bias at d. -/
theorem pay_apply (x0 : Vec Ideal S512x768 .bf16) (x1 : Vec Ideal S768x768 .bf16) (x2 : Vec Ideal S768 .f32) (p : Fin 512)
    (d : Fin 768) : k2_pay1 x0 x1 x2 (ix2 p d) = (∑ k : Fin 768, x0 (ix2 p k) * x1 (ix2 d k)) + x2 (ix1 d) := by
  unfold k2_pay1
  rw [shapeCast_self, shapeCast_self, addf_apply, broadcastTo_1b_ab_apply, shapeCast_a_1a_apply]
  refine congrArg (· + x2 (ix1 d)) ?_
  simp only [matmul]
  rw [Ideal.matmul_constant_zero_apply, ← Equiv.sum_comp (contrEquiv1 dot_S512x768_S768x768_S512x768_1_1_0_0_n_n 768 rfl rfl).symm]
  refine Finset.sum_congr rfl fun k _ => ?_
  have hk := contrEquiv1_symm_val dot_S512x768_S768x768_S512x768_1_1_0_0_n_n 768 rfl rfl k
  have el : dot_S512x768_S768x768_S512x768_1_1_0_0_n_n.lhsIdx (ix2 p d) ((contrEquiv1 dot_S512x768_S768x768_S512x768_1_1_0_0_n_n 768 rfl rfl).symm k) = ix2 p k := funext fun ax => Fin.ext (by
    match ax with
    | ⟨0, _⟩ => exact lhs0 _ _
    | ⟨1, _⟩ => exact (lhs1 _ _).trans hk)
  have er : dot_S512x768_S768x768_S512x768_1_1_0_0_n_n.rhsIdx (ix2 p d) ((contrEquiv1 dot_S512x768_S768x768_S512x768_1_1_0_0_n_n 768 rfl rfl).symm k) = ix2 d k := funext fun ax => Fin.ext (by
    match ax with
    | ⟨0, _⟩ => exact rhs0 _ _
    | ⟨1, _⟩ => exact (rhs1 _ _).trans hk)
  rw [el, er]

/-- The projection with its bias as one array: entry (b, n, d) is the sum over k of X (b, n, k) · W (d, k), plus the bias at d. -/
def outp (X : S16x1024x768.Idx → EReal) (Wt : S768x768.Idx → EReal) (bias : S768.Idx → EReal) : S16x1024x768.Idx → EReal := fun i =>
  (∑ k : Fin 768, X (ix3 (i 0) (i 1) k) * Wt (ix2 (i 2) k)) + bias (ix1 (i 2))

/-- One grid point: the stored value at an entry of the block starting at row r0 is the re-laid result at the entry's row and column. -/
theorem point_eq (x0 : Vec Ideal S512x768 .bf16) (x1 : Vec Ideal S768x768 .bf16) (x2 : Vec Ideal S768 .f32)
    (X : S16x1024x768.Idx → EReal) (Wt : S768x768.Idx → EReal) (bias : S768.Idx → EReal)
    (hcx : S16x1024x768.ShapeCasts S16384x768) (r0 : Nat)
    (h0 : ∀ (p : Fin 512) (k : Fin 768) (hr : r0 + p.val < 16384), x0 (ix2 p k) = shapeCast S16384x768 X hcx (ix2 ⟨r0 + p.val, hr⟩ k))
    (h1 : ∀ d k, x1 (ix2 d k) = Wt (ix2 d k)) (h2 : ∀ d, x2 (ix1 d) = bias (ix1 d))
    (j : S512x768.Idx) (i : S16384x768.Idx) (hi0 : (i 0).val = r0 + (j 0).val) (hi1 : (i 1).val = (j 1).val) :
    k2_pay1 x0 x1 x2 j = shapeCast S16384x768 (outp X Wt bias) hcx i := by
  obtain ⟨p, d, rfl⟩ : ∃ (p : Fin 512) (d : Fin 768), j = ix2 p d := ⟨j 0, j 1, eq_ix2 j⟩
  have hr : r0 + p.val < 16384 := by have := (i 0).isLt; change (i 0).val < 16384 at this; change (i 0).val = r0 + p.val at hi0; omega
  have hi : i = ix2 (⟨r0 + p.val, hr⟩ : Fin 16384) d := by
    funext a; apply Fin.ext
    match a with
    | ⟨0, _⟩ => exact hi0
    | ⟨1, _⟩ => exact hi1
  rw [hi, pay_apply, Region0.flat_read]
  unfold outp
  refine congrArg₂ (· + ·) (Finset.sum_congr rfl fun k _ => ?_) (h2 d)
  rw [h0 p k hr, h1, Region0.flat_read]

/-- Where each window's block sits at a grid point, decided over the grid. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

section
variable (c : Dev nD) (X : S16x1024x768.Idx → EReal) (Wt : S768x768.Idx → EReal) (bias : S768.Idx → EReal)
  (hcx : S16x1024x768.ShapeCasts S16384x768)
  (hx : (V c main_v47 : S16384x768.Idx → EReal) = shapeCast S16384x768 X hcx)
  (hw : (V c main_v25 : S768x768.Idx → EReal) = Wt)
  (hb : (V c main_arg3 : S768.Idx → EReal) = bias)
include hx hw hb

/-- What point t writes back is block t of the re-laid result. -/
theorem flushed_eq (t : Fin cfg2.N) :
    (dat2 V c).flushed 3 t = ((cfg2.win 3).blk t).view.read (Elt Ideal) (shapeCast S16384x768 (outp X Wt bias) hcx) := by
  show (cfg2.win 3).cut (grid2.coords t) ((dat2 V c).after 3 t) = _
  rw [after2_3]
  unfold out2_3
  rw [View.canon_unit_zero zero2]
  simp only [View.ld_unit_zero (S := S512x768) zero2, View.ld_unit_zero (S := S768x768) zero2, View.ld_unit_zero (S := S768) zero1]
  obtain ⟨a0, a1, b0, b1, c0, d0, d1⟩ := idx_facts t
  funext j
  show k2_pay1 (iblk2 V c 0 t) (iblk2 V c 1 t) (iblk2 V c 2 t) j
    = shapeCast S16384x768 (outp X Wt bias) hcx (((cfg2.win 3).blk t).view.emb j)
  refine point_eq _ _ _ X Wt bias hcx (t.val * 512) ?_ ?_ ?_ j _ ?_ ?_
  · intro p k hr
    show V c main_v47 (((cfg2.win 0).blk t).view.emb (ix2 p k)) = _
    refine (congrFun hx _).trans (congrArg _ (funext fun a => Fin.ext ?_))
    match a with
    | ⟨0, _⟩ => show win2_0.index t (0 : Fin 2) * 512 + 1 * p.val = t.val * 512 + p.val; omega
    | ⟨1, _⟩ => show win2_0.index t (1 : Fin 2) * 768 + 1 * k.val = k.val; omega
  · intro d k
    show V c main_v25 (((cfg2.win 1).blk t).view.emb (ix2 d k)) = _
    refine (congrFun hw _).trans (congrArg _ (funext fun a => Fin.ext ?_))
    match a with
    | ⟨0, _⟩ => show win2_1.index t (0 : Fin 2) * 768 + 1 * d.val = d.val; omega
    | ⟨1, _⟩ => show win2_1.index t (1 : Fin 2) * 768 + 1 * k.val = k.val; omega
  · intro d
    show V c main_arg3 (((cfg2.win 2).blk t).view.emb (ix1 d)) = _
    refine (congrFun hb _).trans (congrArg _ (funext fun a => Fin.ext ?_))
    match a with
    | ⟨0, _⟩ => show win2_2.index t (0 : Fin 1) * 768 + 1 * d.val = d.val; omega
  · show win2_3.index t (0 : Fin 2) * 512 + 1 * (j 0).val = t.val * 512 + (j 0).val; omega
  · show win2_3.index t (1 : Fin 2) * 768 + 1 * (j 1).val = (j 1).val; omega

omit hx hw hb in
/-- An entry of the output array is in point t's block iff each coordinate is in the block's range on its axis. -/
theorem mem_blk (t : Fin cfg2.N) (i : S16384x768.Idx) :
    i ∈ ((cfg2.win 3).blk t).view.set ↔ ∀ a : Fin 2, win2_3.index t a * S512x768.size a ≤ (i a).val ∧ (i a).val < win2_3.index t a * S512x768.size a + S512x768.size a := by
  show i ∈ ((View.whole main_v48).slice (win2_3.rect t)).set ↔ _
  rw [View.set_slice_whole, Rect.mem_set_unit]
  exact Iff.rfl

omit hx hw hb in
/-- The row blocks tile the output array: row r is in point r / 512's block. -/
theorem cover (i : S16384x768.Idx) : ∃ t : Fin cfg2.N, (cfg2.win 3).flush t = true ∧ i ∈ ((cfg2.win 3).blk t).view.set := by
  have hN : grid2.N = 32 := N_2
  have hi0 : (i 0).val < 16384 := (i 0).isLt
  have hi1 : (i 1).val < 768 := (i 1).isLt
  let t : Fin cfg2.N := ⟨(i 0).val / 512, by show (i 0).val / 512 < grid2.N; omega⟩
  refine ⟨t, flush2_3 t, ?_⟩
  rw [mem_blk]
  obtain ⟨a0, a1, b0, b1, c0, d0, d1⟩ := idx_facts t
  have htv : t.val = (i 0).val / 512 := rfl
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 768 ≤ (i 1).val ∧ (i 1).val < win2_3.index t (1 : Fin 2) * 768 + 768; omega

/-- THE OUTPUT ARRAY after the region: the re-laid projection with its bias. -/
theorem final : (dat2 V c).arrAt 3 cfg2.N = shapeCast S16384x768 (outp X Wt bias) hcx :=
  (dat2 V c).arrAt_eq_of_cover 3 (shapeCast S16384x768 (outp X Wt bias) hcx) (fun t _ => flushed_eq V c X Wt bias hcx hx hw hb t) cover

end

end Cert.KernelIdeal.Region2

end
-- ==== Proof.AttnRef.lean ====
/-
  The reference's attention at an entry.

  The reference computes all 16 × 12 heads at once on rank-4 arrays: the batched contraction of q against k, the scale
  1/8, the maximum over the last axis (from -inf, and once more against -inf), the difference, the exponential, the sum
  over the last axis, the quotient, and the batched contraction against v. Read at (b, h, n, e) each step reads its
  operands at the same (b, h), so the whole is the head's output of the three 1024 × 64 matrices q, k, v at (b, h).
-/
import proofs.«141683_j13099650253523_1_alg».proof.Proof.Gen.ReferenceIdeal.Read
import proofs.«141683_j13099650253523_1_alg».proof.Proof.Softmax
import Idealize.ShloMosaic.Lib.ValueIdx
import Idealize.ShloMosaic.PureOps.Ideal.Laws
import Idealize.ShloMosaic.PureOps.Reduce

noncomputable section

open scoped BigOperators

namespace Cert.ReferenceIdeal.AttnRef

open Cert.ReferenceIdeal Cert.ReferenceIdeal.Gen Cert.ReferenceIdeal.Read Idealize.ShloMosaic Idealize.ShloMosaic.ValueIdx Cert.Attn

variable (x0 : (⟨S16x1024x768, .f32⟩ : BufTy).Contents (Elt Ideal)) (x1 : (⟨S2304x768, .f32⟩ : BufTy).Contents (Elt Ideal))

/-- The query matrix of head (b, h). -/
def qOf (b : Fin 16) (h : Fin 12) : Fin 1024 → Fin 64 → EReal := fun n e => val_main_v16 (F := Ideal) x0 x1 (ix4 b h n e)
/-- The key matrix of head (b, h). -/
def kOf (b : Fin 16) (h : Fin 12) : Fin 1024 → Fin 64 → EReal := fun n e => val_main_v18 (F := Ideal) x0 x1 (ix4 b h n e)
/-- The value matrix of head (b, h). -/
def vOf (b : Fin 16) (h : Fin 12) : Fin 1024 → Fin 64 → EReal := fun n e => val_main_v20 (F := Ideal) x0 x1 (ix4 b h n e)

/-- The scaled scores at (b, h, n, j). -/
theorem scores_at (b : Fin 16) (h : Fin 12) (n j : Fin 1024) :
    val_main_v23 (F := Ideal) x0 x1 (ix4 b h n j) = score (qOf x0 x1 b h) (kOf x0 x1 b h) n j := by
  rw [val_main_v23_apply, val_main_v21_apply, val_main_v22_apply, val_main_cst_4_apply]
  unfold score
  refine congrArg₂ (· * ·) (Finset.sum_congr rfl fun e _ => ?_) rfl
  refine congrArg₂ (· * ·) (congrArg (val_main_v16 (F := Ideal) x0 x1) ?_) (congrArg (val_main_v18 (F := Ideal) x0 x1) ?_)
  · funext ax; match ax with | ⟨0, _⟩ => rfl | ⟨1, _⟩ => rfl | ⟨2, _⟩ => rfl | ⟨3, _⟩ => rfl
  · funext ax; match ax with | ⟨0, _⟩ => rfl | ⟨1, _⟩ => rfl | ⟨2, _⟩ => rfl | ⟨3, _⟩ => rfl

/-- The row maximum at (b, h, n): the fold of max from -inf over the row of scores, and once more against -inf. -/
theorem rowmax_at (b : Fin 16) (h : Fin 12) (n : Fin 1024) :
    val_main_v26 (F := Ideal) x0 x1 (ix3 b h n)
      = max negInf (Finset.univ.fold max negInf (fun j : Fin 1024 => val_main_v23 (F := Ideal) x0 x1 (ix4 b h n j))) := by
  rw [val_main_v26_apply, val_main_v25_apply, val_main_cst_6_apply]
  unfold val_main_v24
  rw [Host.reduce_eq_fold_single FloatOps.maximumf _ _ reducesTo_S16x12x1024x1024_S16x12x1024_d3 (by decide : S16x12x1024x1024.Reduces [3] S16x12x1024) h_S_]
  refine congrArg (max negInf) ?_
  show Finset.univ.fold max negInf _ = _
  exact congrArg (Finset.univ.fold max negInf) (funext fun j => congrArg (val_main_v23 (F := Ideal) x0 x1) (funext fun ax => Fin.ext (by
    match ax with
    | ⟨0, _⟩ => rfl
    | ⟨1, _⟩ => rfl
    | ⟨2, _⟩ => rfl
    | ⟨3, _⟩ => rfl)))

/-- The exponential at (b, h, n, j). -/
theorem exp_at (b : Fin 16) (h : Fin 12) (n j : Fin 1024) :
    val_main_v30 (F := Ideal) x0 x1 (ix4 b h n j)
      = Ideal.exp (val_main_v23 (F := Ideal) x0 x1 (ix4 b h n j) - val_main_v26 (F := Ideal) x0 x1 (ix3 b h n)) := by
  rw [val_main_v30_apply, val_main_v29_apply, val_main_v28_apply, val_main_v27_apply]
  show Ideal.exp (_ - val_main_v26 (F := Ideal) x0 x1 _) = _
  refine congrArg (fun z => Ideal.exp (_ - val_main_v26 (F := Ideal) x0 x1 z)) ?_
  funext ax; match ax with | ⟨0, _⟩ => rfl | ⟨1, _⟩ => rfl | ⟨2, _⟩ => rfl

/-- The row sum at (b, h, n). -/
theorem rowsum_at (b : Fin 16) (h : Fin 12) (n : Fin 1024) :
    val_main_v31 (F := Ideal) x0 x1 (ix3 b h n) = ∑ j : Fin 1024, val_main_v30 (F := Ideal) x0 x1 (ix4 b h n j) := by
  rw [val_main_v31_apply, val_main_cst_7_apply]
  show Ideal.ofBits .f32 0x00000000#32 + _ = _
  rw [Ideal.ofBits_zero_f32, zero_add]
  refine Finset.sum_congr rfl fun j _ => congrArg (val_main_v30 (F := Ideal) x0 x1) ?_
  funext ax; match ax with | ⟨0, _⟩ => rfl | ⟨1, _⟩ => rfl | ⟨2, _⟩ => rfl | ⟨3, _⟩ => rfl

/-- The weight at (b, h, n, j). -/
theorem weight_at (b : Fin 16) (h : Fin 12) (n j : Fin 1024) :
    val_main_v34 (F := Ideal) x0 x1 (ix4 b h n j) = weight (score (qOf x0 x1 b h) (kOf x0 x1 b h) n) j := by
  rw [val_main_v34_apply, val_main_v33_apply, val_main_v32_apply]
  show Ideal.div _ (val_main_v31 (F := Ideal) x0 x1 _) = _
  have e3 : idx_main_v32 (idx_main_v33 (ix4 b h n j)) = ix3 b h n := by
    funext ax; match ax with | ⟨0, _⟩ => rfl | ⟨1, _⟩ => rfl | ⟨2, _⟩ => rfl
  rw [e3, rowsum_at]
  simp only [exp_at, rowmax_at, scores_at]
  rfl

/-- THE REFERENCE'S ATTENTION at (b, h, n, e): the head's output of the matrices q, k, v at (b, h). -/
theorem attn_at (b : Fin 16) (h : Fin 12) (n : Fin 1024) (e : Fin 64) :
    val_main_v35 (F := Ideal) x0 x1 (ix4 b h n e) = head (qOf x0 x1 b h) (kOf x0 x1 b h) (vOf x0 x1 b h) n e := by
  rw [val_main_v35_apply]
  unfold head
  refine Finset.sum_congr rfl fun j _ => ?_
  have el : lidx_main_v35 (ix4 b h n e) j = ix4 b h n j := by
    funext ax; match ax with | ⟨0, _⟩ => rfl | ⟨1, _⟩ => rfl | ⟨2, _⟩ => rfl | ⟨3, _⟩ => rfl
  have er : ridx_main_v35 (ix4 b h n e) j = ix4 b h j e := by
    funext ax; match ax with | ⟨0, _⟩ => rfl | ⟨1, _⟩ => rfl | ⟨2, _⟩ => rfl | ⟨3, _⟩ => rfl
  rw [el, er, weight_at]
  rfl

end Cert.ReferenceIdeal.AttnRef

end
-- ==== Proof.RefBridge.lean ====
/-
  The three region specifications are the reference's stages.

  The reference contracts the input [16, 1024, 768] against the quantized weight without flattening it, computes all heads
  at once, and contracts the re-laid attention output against the second quantized weight and adds the bias. Entry by
  entry these are the projection, the heads' array and the projection with bias that the three regions compute.
-/
import proofs.«141683_j13099650253523_1_alg».proof.Proof.Gen.ReferenceIdeal.Read
import proofs.«141683_j13099650253523_1_alg».proof.Proof.Region0
import proofs.«141683_j13099650253523_1_alg».proof.Proof.Region1
import proofs.«141683_j13099650253523_1_alg».proof.Proof.Region2
import proofs.«141683_j13099650253523_1_alg».proof.Proof.AttnRef

noncomputable section

open scoped BigOperators

namespace Cert.Bridge

open Idealize.ShloMosaic Idealize.ShloMosaic.ValueIdx Cert.ReferenceIdeal.Read

variable (x0 : (⟨Cert.ReferenceIdeal.S16x1024x768, .f32⟩ : BufTy).Contents (Elt Ideal))
  (x1 : (⟨Cert.ReferenceIdeal.S2304x768, .f32⟩ : BufTy).Contents (Elt Ideal))
  (x2 : (⟨Cert.ReferenceIdeal.S768x768, .f32⟩ : BufTy).Contents (Elt Ideal))
  (x3 : (⟨Cert.ReferenceIdeal.S768, .f32⟩ : BufTy).Contents (Elt Ideal))

/-- The first projection of the input against the quantized weight is the reference's first contraction. -/
theorem proj_eq : Cert.KernelIdeal.Region0.proj x0 (val_main_v11 (F := Ideal) x1) = val_main_v12 (F := Ideal) x0 x1 := by
  funext i
  rw [val_main_v12_apply]
  unfold Cert.KernelIdeal.Region0.proj
  refine Finset.sum_congr rfl fun k _ => ?_
  refine congrArg₂ (· * ·) (congrArg x0 ?_) (congrArg (val_main_v11 (F := Ideal) x1) ?_)
  · funext ax; match ax with | ⟨0, _⟩ => rfl | ⟨1, _⟩ => rfl | ⟨2, _⟩ => rfl
  · funext ax; match ax with | ⟨0, _⟩ => rfl | ⟨1, _⟩ => rfl

/-- The heads' array of the reference's q, k, v is the reference's attention output. -/
theorem heads_eq : Cert.KernelIdeal.Region1.headsOf (val_main_v16 (F := Ideal) x0 x1) (val_main_v18 (F := Ideal) x0 x1)
    (val_main_v20 (F := Ideal) x0 x1) = val_main_v35 (F := Ideal) x0 x1 := by
  funext i
  exact ((congrArg (val_main_v35 (F := Ideal) x0 x1) (eq_ix4 i)).trans
    (Cert.ReferenceIdeal.AttnRef.attn_at x0 x1 (i 0) (i 1) (i 2) (i 3))).symm

/-- The projection with bias of the re-laid attention output is the reference's result. -/
theorem outp_eq : Cert.KernelIdeal.Region2.outp (val_main_v37 (F := Ideal) x0 x1) (val_main_v49 (F := Ideal) x2) x3
    = val_main_v53 (F := Ideal) x0 x1 x2 x3 := by
  funext i
  rw [val_main_v53_apply, val_main_v50_apply, val_main_v52_apply, val_main_v51_apply]
  unfold Cert.KernelIdeal.Region2.outp
  show _ + _ = _ + _
  refine congrArg₂ (· + ·) (Finset.sum_congr rfl fun k _ => ?_) (congrArg x3 ?_)
  · refine congrArg₂ (· * ·) (congrArg (val_main_v37 (F := Ideal) x0 x1) ?_) (congrArg (val_main_v49 (F := Ideal) x2) ?_)
    · funext ax; match ax with | ⟨0, _⟩ => rfl | ⟨1, _⟩ => rfl | ⟨2, _⟩ => rfl
    · funext ax; match ax with | ⟨0, _⟩ => rfl | ⟨1, _⟩ => rfl
  · funext ax; match ax with | ⟨0, _⟩ => rfl

end Cert.Bridge

end
-- ==== Proof.LibReshape.lean ====
/-
  Re-laying an array in row-major order twice is re-laying it once.
-/
import Idealize.ShloMosaic.Lib.Pipeline.Value

namespace Cert.Reshape

open Idealize.ShloMosaic

variable {α : Type}

/-- A reshape of a reshape is the reshape to the last shape: every step keeps the row-major position. General in the
    three shapes and the element type. -/
theorem shapeCast_comp {s t u : Shape} (v : s.Idx → α) (h : s.ShapeCasts t) (h' : t.ShapeCasts u) (h'' : s.ShapeCasts u) :
    shapeCast u (shapeCast t v h) h' = shapeCast u v h'' :=
  funext fun i => congrArg v (by
    show Shape.reshapeEquiv _ (Shape.reshapeEquiv _ i) = Shape.reshapeEquiv _ i
    rw [Shape.reshapeEquiv_reshapeEquiv])

/-- The same with the composed fact built from the two given ones, so that it rewrites without an extra argument. -/
theorem shapeCast_comp' {s t u : Shape} (v : s.Idx → α) (h : s.ShapeCasts t) (h' : t.ShapeCasts u) :
    shapeCast u (shapeCast t v h) h' = shapeCast u v (h'.trans h) :=
  shapeCast_comp v h h' (h'.trans h)

/-- Two reshapes of one array agree at indices with the same row-major position. -/
theorem shapeCast_eq_of_pos {s t u : Shape} (v : s.Idx → α) (h : s.ShapeCasts t) (h' : s.ShapeCasts u) (i : t.Idx) (j : u.Idx)
    (e : (t.rowMajor i).val = (u.rowMajor j).val) : shapeCast t v h i = shapeCast u v h' j :=
  congrArg v (Shape.reshapeEquiv_eq_of_rowMajor h ((Shape.rowMajor_reshapeEquiv h' j).trans e.symm))

end Cert.Reshape
-- ==== Proof.KValue.lean ====
/-
  The idealized kernel's result as a function of its arguments.

  Following the buffers through @main: before the first region the host has flattened the input and quantized the two
  weights exactly as the reference does; each region then leaves the re-laying of a reference stage in its output array,
  and the host operations between the regions are the reference's own re-layings, transpositions and slices. So the
  first region's output is the re-laid first contraction, the second's the re-laid attention output, the third's the
  re-laid result, and the last reshape undoes the re-laying.
-/
import proofs.«141683_j13099650253523_1_alg».proof.Proof.KRun
import proofs.«141683_j13099650253523_1_alg».proof.Proof.RefBridge
import proofs.«141683_j13099650253523_1_alg».proof.Proof.LibReshape
import Idealize.ShloMosaic.Lib.StableHlo.Run

set_option maxRecDepth 16384

noncomputable section

namespace Cert.KernelIdeal.WholeValue

open Cert.KernelIdeal Cert.KernelIdeal.Gen Idealize.ShloMosaic Idealize.ShloMosaic.TcCoe Idealize.ShloMosaic.StableHlo
open Idealize.SL.Sem
open Cert.ReferenceIdeal.Read Cert.Reshape

variable (m : (ℓ : Loc nD τ sig) → Buf (Elt Ideal) ℓ) (ρ : Dev nD → PrngReg) (c : Dev nD)

/-- The four argument arrays as launched. -/
abbrev a0 : S16x1024x768.Idx → EReal := m ((c.tc : Thread nD τ).loc main_arg0)
abbrev a1 : S2304x768.Idx → EReal := m ((c.tc : Thread nD τ).loc main_arg1)
abbrev a2 : S768x768.Idx → EReal := m ((c.tc : Thread nD τ).loc main_arg2)
abbrev a3 : S768.Idx → EReal := m ((c.tc : Thread nD τ).loc main_arg3)

/-! ## The re-layings' size facts, named once

Each says two shapes have as many entries. Stated as theorems so that later statements carry their names. -/

theorem cast_rows : S16x1024x768.ShapeCasts S16384x768 := by decide
theorem cast_qkv : (⟨3, ![16, 1024, 2304]⟩ : Shape).ShapeCasts S16384x2304 := by decide
theorem cast_heads : S16x12x1024x64.ShapeCasts S192x1024x64 := by decide

/-! ## What the first region is entered with -/

set_option maxHeartbeats 4000000 in
/-- The first weight buffer holds the reference's quantized first weight. -/
theorem entry_w1 : W7 m ρ c (Proc.devRef .tc main_v12) = val_main_v11 (F := Ideal) (a1 m c) := by
  simp only [W7, W6, W5, W4, W3, W2, W1]
  after_results_simp
  rfl

set_option maxHeartbeats 4000000 in
/-- The second weight buffer holds the reference's quantized second weight. -/
theorem entry_w2 : W7 m ρ c (Proc.devRef .tc main_v25) = val_main_v49 (F := Ideal) (a2 m c) := by
  simp only [W7, W6, W5, W4, W3, W2, W1]
  after_results_simp
  rfl

set_option maxHeartbeats 4000000 in
/-- The flattened input buffer holds the input re-laid as [16384, 768]. -/
theorem entry_x : W7 m ρ c (Proc.devRef .tc main_v27) = shapeCast S16384x768 (a0 m c) cast_rows := by
  simp only [W7, W6, W5, W4, W3, W2, W1]
  after_results_simp
  rfl

set_option maxHeartbeats 4000000 in
/-- The bias is untouched before the first region. -/
theorem entry_b : W7 m ρ c (Proc.devRef .tc main_arg3) = a3 m c := by
  simp only [W7, W6, W5, W4, W3, W2, W1]
  after_results_simp

/-! ## After the first region -/

/-- The first region's output array: the re-laid first contraction of the reference. -/
theorem after_region0 : W8 m ρ c (Proc.devRef .tc main_v28)
    = shapeCast S16384x2304 (val_main_v12 (F := Ideal) (a0 m c) (a1 m c)) cast_qkv := by
  refine (W8_arr m ρ c 2).trans ?_
  rw [Region0.final (V7 m ρ) c (a0 m c) (val_main_v11 (F := Ideal) (a1 m c)) cast_rows cast_qkv (entry_x m ρ c) (entry_w1 m ρ c),
    Cert.Bridge.proj_eq]

/-! ## What the second region is entered with: the reference's q, k, v re-laid head by head -/

/-- The query buffer. -/
theorem entry_q : W9 m ρ c (Proc.devRef .tc main_v38)
    = shapeCast S192x1024x64 (val_main_v16 (F := Ideal) (a0 m c) (a1 m c)) cast_heads := by
  simp only [W9]
  after_results_simp
  rw [after_region0]
  show truncf .bf16 (shapeCast S192x1024x64 (shapeCast S16x12x1024x64 (extractStridedSlice S1x16x12x1024x64 ![0, 0, 0, 0, 0]
    (transpose S3x16x12x1024x64 [2, 0, 3, 1, 4] (shapeCast S16x1024x3x12x64 (shapeCast S16384x2304 _ cast_qkv) _) _) _) _) _) _ = _
  rw [shapeCast_comp' (val_main_v12 (F := Ideal) (a0 m c) (a1 m c))]
  rfl

/-- The key buffer. -/
theorem entry_k : W9 m ρ c (Proc.devRef .tc main_v40)
    = shapeCast S192x1024x64 (val_main_v18 (F := Ideal) (a0 m c) (a1 m c)) cast_heads := by
  simp only [W9]
  after_results_simp
  rw [after_region0]
  show truncf .bf16 (shapeCast S192x1024x64 (shapeCast S16x12x1024x64 (extractStridedSlice S1x16x12x1024x64 ![1, 0, 0, 0, 0]
    (transpose S3x16x12x1024x64 [2, 0, 3, 1, 4] (shapeCast S16x1024x3x12x64 (shapeCast S16384x2304 _ cast_qkv) _) _) _) _) _) _ = _
  rw [shapeCast_comp' (val_main_v12 (F := Ideal) (a0 m c) (a1 m c))]
  rfl

/-- The value buffer. -/
theorem entry_v : W9 m ρ c (Proc.devRef .tc main_v42)
    = shapeCast S192x1024x64 (val_main_v20 (F := Ideal) (a0 m c) (a1 m c)) cast_heads := by
  simp only [W9]
  after_results_simp
  rw [after_region0]
  show truncf .bf16 (shapeCast S192x1024x64 (shapeCast S16x12x1024x64 (extractStridedSlice S1x16x12x1024x64 ![2, 0, 0, 0, 0]
    (transpose S3x16x12x1024x64 [2, 0, 3, 1, 4] (shapeCast S16x1024x3x12x64 (shapeCast S16384x2304 _ cast_qkv) _) _) _) _) _) _ = _
  rw [shapeCast_comp' (val_main_v12 (F := Ideal) (a0 m c) (a1 m c))]
  rfl

/-- The second region's output array: the re-laid attention output of the reference. -/
theorem after_region1 : W10 m ρ c (Proc.devRef .tc main_v43)
    = shapeCast S192x1024x64 (val_main_v35 (F := Ideal) (a0 m c) (a1 m c)) cast_heads := by
  refine (W10_arr m ρ c 3).trans ?_
  rw [Region1.final (V9 m ρ) c _ _ _ cast_heads (entry_q m ρ c) (entry_k m ρ c) (entry_v m ρ c), Cert.Bridge.heads_eq]

/-! ## What the third region is entered with -/

/-- The flattened attention output: the reference's re-laid attention output, re-laid once more as [16384, 768]. -/
theorem entry_o : W11 m ρ c (Proc.devRef .tc main_v47)
    = shapeCast S16384x768 (val_main_v37 (F := Ideal) (a0 m c) (a1 m c)) cast_rows := by
  simp only [W11]
  after_results_simp
  rw [after_region1]
  show truncf .bf16 (shapeCast S16384x768 (transpose S16x1024x12x64 [0, 2, 1, 3]
    (shapeCast S16x12x1024x64 (shapeCast S192x1024x64 _ cast_heads) _) _) _) _ = _
  rw [shapeCast_shapeCast]
  exact (shapeCast_comp' (val_main_v36 (F := Ideal) (a0 m c) (a1 m c)) _ _).symm

/-- The second weight buffer is still the reference's quantized second weight: no region and no later host operation writes it. -/
theorem entry_w2' : W11 m ρ c (Proc.devRef .tc main_v25) = val_main_v49 (F := Ideal) (a2 m c) := by
  simp only [W11]
  after_results_simp
  rw [W10_of_ne m ρ c main_v25 (by decide)]
  simp only [W9]
  after_results_simp
  rw [W8_of_ne m ρ c main_v25 (by decide)]
  exact entry_w2 m ρ c

/-- The bias is still as launched. -/
theorem entry_b' : W11 m ρ c (Proc.devRef .tc main_arg3) = a3 m c := by
  simp only [W11]
  after_results_simp
  rw [W10_of_ne m ρ c main_arg3 (by decide)]
  simp only [W9]
  after_results_simp
  rw [W8_of_ne m ρ c main_arg3 (by decide)]
  exact entry_b m ρ c

/-- The third region's output array: the re-laid result of the reference. -/
theorem after_region2 : W12 m ρ c (Proc.devRef .tc main_v48)
    = shapeCast S16384x768 (val_main_v53 (F := Ideal) (a0 m c) (a1 m c) (a2 m c) (a3 m c)) cast_rows := by
  refine (W12_arr m ρ c 3).trans ?_
  rw [Region2.final (V11 m ρ) c _ _ _ cast_rows (entry_o m ρ c) (entry_w2' m ρ c) (entry_b' m ρ c), Cert.Bridge.outp_eq]

/-! ## The result -/

/-- THE RESULT BUFFER after @main: the reference's result of the launched arguments. -/
theorem result_eq : W13 m ρ c (Proc.devRef .tc main_v49)
    = val_main_v53 (F := Ideal) (a0 m c) (a1 m c) (a2 m c) (a3 m c) := by
  simp only [W13]
  after_results_simp
  rw [after_region2]
  show shapeCast S16x1024x768 (shapeCast S16384x768 _ cast_rows) _ = _
  rw [shapeCast_shapeCast]

end Cert.KernelIdeal.WholeValue

end
-- ==== Proof.lean ====
/-
  Multi-head attention with ternary-quantized projections: the kernel against its reference, on the extended reals.

  Both programs quantize the two weight matrices by the same host arithmetic, project the input [16, 1024, 768] to
  queries, keys and values, run scaled dot-product attention in each of the 16 × 12 heads (scores q · kᵀ / 8, a softmax
  along each row taken with the row maximum from -inf, weights · v), put the heads side by side and project again, adding a
  bias. The kernel does the three contractions in three pipelined regions over flattened arrays — 512 rows at a time for
  the two projections, one head at a time for the attention — and re-lays the arrays between them; the reference works on
  the unflattened arrays in one piece. Changes of float format are the identity on extended reals, a contraction into a
  zero accumulator is the host's contraction, and a row-major re-laying keeps every entry, so at each entry the two programs
  evaluate the same expression of the arguments: no algebraic law is used and the inputs' finiteness is never opened.

  The kernel's side: its run ends with the result buffer at the last boundary's contents (KRun), and following the buffers
  through @main those contents are the reference's result term of the launched arguments (KValue, over the three regions'
  output arrays Region0 / Region1 / Region2, the attention body AttnBody and the reference's attention AttnRef, joined by
  RefBridge). The reference's side is its own run read back. The three frames are the programs' runs with the result
  dropped; the idealization rewrote nothing, so preserves is trivial.
-/
import proofs.«141683_j13099650253523_1_alg».proof.Defs
import proofs.«141683_j13099650253523_1_alg».proof.Proof.Gen.Kernel
import proofs.«141683_j13099650253523_1_alg».proof.Proof.Gen.Kernel.Skeleton
import proofs.«141683_j13099650253523_1_alg».proof.Proof.Gen.Kernel.Launch
import proofs.«141683_j13099650253523_1_alg».proof.Proof.Gen.Kernel.Points
import proofs.«141683_j13099650253523_1_alg».proof.Proof.Gen.Kernel.Frame
import proofs.«141683_j13099650253523_1_alg».proof.Proof.Gen.KernelIdeal
import proofs.«141683_j13099650253523_1_alg».proof.Proof.Gen.KernelIdeal.Skeleton
import proofs.«141683_j13099650253523_1_alg».proof.Proof.Gen.KernelIdeal.Launch
import proofs.«141683_j13099650253523_1_alg».proof.Proof.Gen.KernelIdeal.Points
import proofs.«141683_j13099650253523_1_alg».proof.Proof.Gen.KernelIdeal.Frame
import proofs.«141683_j13099650253523_1_alg».proof.Proof.Gen.ReferenceIdeal
import proofs.«141683_j13099650253523_1_alg».proof.Proof.Gen.ReferenceIdeal.Run
import proofs.«141683_j13099650253523_1_alg».proof.Proof.Gen.ReferenceIdeal.Read
import proofs.«141683_j13099650253523_1_alg».proof.Proof.Gen.Pre_finite_inputs
import proofs.«141683_j13099650253523_1_alg».proof.Proof.KRun
import proofs.«141683_j13099650253523_1_alg».proof.Proof.KValue
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs run, and both result arrays hold the reference's
    result term of the launched arguments: the kernel's by following its buffers through the three regions, the
    reference's by its own run. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.WholeValue.result_eq m ρ c), (h c).2⟩)
    (Cert.KernelIdeal.Whole.run_last m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
